-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v6_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v6_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x4096 : Shape := ⟨2, ![4096, 4096]⟩
abbrev S4096x2 : Shape := ⟨2, ![4096, 2]⟩
abbrev S2x4096 : Shape := ⟨2, ![2, 4096]⟩
abbrev S4096x1 : Shape := ⟨2, ![4096, 1]⟩
abbrev S4096 : Shape := ⟨1, ![4096]⟩
abbrev S1x4096 : Shape := ⟨2, ![1, 4096]⟩
abbrev S4x4x1x128 : Shape := ⟨4, ![4, 4, 1, 128]⟩
abbrev S1024x2 : Shape := ⟨2, ![1024, 2]⟩
abbrev S2x1024 : Shape := ⟨2, ![2, 1024]⟩
abbrev S1024x1024 : Shape := ⟨2, ![1024, 1024]⟩
abbrev S1x1024 : Shape := ⟨2, ![1, 1024]⟩
abbrev S1x1x1x128 : Shape := ⟨4, ![1, 1, 1, 128]⟩
abbrev S1024x1 : Shape := ⟨2, ![1024, 1]⟩
abbrev S1x1024x1024 : Shape := ⟨3, ![1, 1024, 1024]⟩
abbrev S1 : Shape := ⟨1, ![1]⟩
abbrev S1x1x1 : Shape := ⟨3, ![1, 1, 1]⟩
abbrev S1x1024x1 : Shape := ⟨3, ![1, 1024, 1]⟩
abbrev S1x128 : Shape := ⟨2, ![1, 128]⟩
abbrev S4x4x1x1 : Shape := ⟨4, ![4, 4, 1, 1]⟩
abbrev S4x4 : Shape := ⟨2, ![4, 4]⟩
abbrev S_ : Shape := ⟨0, ![]⟩

abbrev nBuf : Space → Nat
  | .hbm => 32
  | .vmem => 14
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x2, .f32⟩
  | .hbm, ⟨3, _⟩ => ⟨S4096x2, .f32⟩
  | .hbm, ⟨4, _⟩ => ⟨S2x4096, .f32⟩
  | .hbm, ⟨5, _⟩ => ⟨S4096x1, .f32⟩
  | .hbm, ⟨6, _⟩ => ⟨S4096, .f32⟩
  | .hbm, ⟨7, _⟩ => ⟨S1x4096, .f32⟩
  | .hbm, ⟨8, _⟩ => ⟨S4096x4096, .f32⟩
  | .hbm, ⟨9, _⟩ => ⟨S4x4x1x128, .f32⟩
  | .hbm, ⟨10, _⟩ => ⟨S4x4x1x1, .f32⟩
  | .hbm, ⟨11, _⟩ => ⟨S4x4, .f32⟩
  | .hbm, ⟨12, _⟩ => ⟨S_, .f32⟩
  | .hbm, ⟨13, _⟩ => ⟨S_, .f32⟩
  | .hbm, ⟨14, _⟩ => ⟨S4x4x1x1, .f32⟩
  | .hbm, ⟨15, _⟩ => ⟨S4x4, .f32⟩
  | .hbm, ⟨16, _⟩ => ⟨S_, .f32⟩
  | .hbm, ⟨17, _⟩ => ⟨S_, .f32⟩
  | .hbm, ⟨18, _⟩ => ⟨S4x4x1x1, .f32⟩
  | .hbm, ⟨19, _⟩ => ⟨S4x4, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S1024x2, .f32⟩
  | .local _ .vmem, ⟨1, _⟩ => ⟨S1024x2, .f32⟩
  | .local _ .vmem, ⟨2, _⟩ => ⟨S2x1024, .f32⟩
  | .local _ .vmem, ⟨3, _⟩ => ⟨S2x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1x1x1x128, .f32⟩
  | .local _ .vmem, ⟨13, _⟩ => ⟨S1x1x1x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6_0 : Ref sig .tc := ⟨.hbm, 8, rfl⟩
abbrev main_v6_1 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1024x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  slices_S4096x4096_S4096x2_0_0 : S4096x4096.Slices ![0, 0] S4096x2
  transposes_S4096x2_S2x4096_1_0 : S4096x2.Transposes [1, 0] S2x4096
  slices_S4096x4096_S4096x1_0_3 : S4096x4096.Slices ![0, 3] S4096x1
  shapeCasts_S4096x1_S4096 : S4096x1.ShapeCasts S4096
  shapeCasts_S4096_S1x4096 : S4096.ShapeCasts S1x4096
  inb_S1024x2_S1024x1_0_0 : ∀ a, (![0, 0] : Fin 2 → Nat) a + S1024x1.size a ≤ S1024x2.size a
  h_S1024x1 : 0 < S1024x1.numel
  shapeCasts_S1024x1_S1024x1 : S1024x1.ShapeCasts S1024x1
  inb_S1024x2_S1024x1_0_1 : ∀ a, (![0, 1] : Fin 2 → Nat) a + S1024x1.size a ≤ S1024x2.size a
  inb_S2x1024_S1x1024_0_0 : ∀ a, (![0, 0] : Fin 2 → Nat) a + S1x1024.size a ≤ S2x1024.size a
  h_S1x1024 : 0 < S1x1024.numel
  shapeCasts_S1x1024_S1x1024 : S1x1024.ShapeCasts S1x1024
  inb_S2x1024_S1x1024_1_0 : ∀ a, (![1, 0] : Fin 2 → Nat) a + S1x1024.size a ≤ S2x1024.size a
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S1024x1024_S1x1024x1024 : S1024x1024.ShapeCasts S1x1024x1024
  reduces_S1x1024x1024_S1 : S1x1024x1024.Reduces [1, 2] S1
  shapeCasts_S1_S1x1x1 : S1.ShapeCasts S1x1x1
  inpos_S1x1x1_p0_0_0 : ∀ a, (![0, 0, 0] : Fin 3 → Nat) a < S1x1x1.size a
  inb_S1x1024_S1x1024_0_0 : ∀ a, (![0, 0] : Fin 2 → Nat) a + S1x1024.size a ≤ S1x1024.size a
  slices_S1024x1024_o0_4_S1024x1 : S1024x1024.Slices ![0, 4] S1024x1
  shapeCasts_S1024x1_S1x1024x1 : S1024x1.ShapeCasts S1x1024x1
  reduces_S1x1024x1_S1 : S1x1024x1.Reduces [1, 2] S1
  iota_S1x128_d1_w32 : S1x128.Iotas .tc 32 [1]
  shapeCasts_S1x128_S1x1x1x128 : S1x128.ShapeCasts S1x1x1x128
  inb_S1x1x1x128_S1x1x1x128_0_0_0_0 : ∀ a, (![0, 0, 0, 0] : Fin 4 → Nat) a + S1x1x1x128.size a ≤ S1x1x1x128.size a
  h_S1x1x1x128 : 0 < S1x1x1x128.numel
  slices_S4x4x1x128_S4x4x1x1_0_0_0_0 : S4x4x1x128.Slices ![0, 0, 0, 0] S4x4x1x1
  shapeCasts_S4x4x1x1_S4x4 : S4x4x1x1.ShapeCasts S4x4
  reducesTo_S4x4_S_d0_1 : S4x4.ReducesTo [0, 1] S_
  h_S_ : 0 < S_.numel
  slices_S4x4x1x128_S4x4x1x1_0_0_0_1 : S4x4x1x128.Slices ![0, 0, 0, 1] S4x4x1x1
  slices_S4x4x1x128_S4x4x1x1_0_0_0_2 : S4x4x1x128.Slices ![0, 0, 0, 2] S4x4x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2.size a ≤ S4096x2.size a
  hwx0_0 : ∀ i : grid0.Coords, EltTy.bits .f32 = 32 ∨ (Rect.block (s := S4096x2) S1024x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024.size a ≤ S2x4096.size a
  hwx0_1 : ∀ i : grid0.Coords, EltTy.bits .f32 = 32 ∨ (Rect.block (s := S2x4096) S2x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S4096x4096.size a
  hwx0_5 : ∀ i : grid0.Coords, EltTy.bits .f32 = 32 ∨ (Rect.block (s := S4096x4096) S1024x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1x128.size a ≤ S4x4x1x128.size a
  hwx0_6 : ∀ i : grid0.Coords, EltTy.bits .f32 = 32 ∨ (Rect.block (s := S4x4x1x128) S1x1x1x128.size (cc0_transform_6 i) (hinb0_6 i)).WholeWords (EltTy.packing .f32)

variable [Facts₀]

abbrev win0_0 : Pipeline.Window sig grid0 :=
  Pipeline.Window.ofSpec (Memref.whole main_v0) S1024x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S1024x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S1x1x1x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096x2 : Shape := ⟨2, ![4096, 2]⟩
abbrev S4096x1x2 : Shape := ⟨3, ![4096, 1, 2]⟩
abbrev S1x4096x2 : Shape := ⟨3, ![1, 4096, 2]⟩
abbrev S4096x4096x2 : Shape := ⟨3, ![4096, 4096, 2]⟩
abbrev S_ : Shape := ⟨0, ![]⟩
abbrev S4096x1 : Shape := ⟨2, ![4096, 1]⟩
abbrev S4096 : Shape := ⟨1, ![4096]⟩
abbrev S1x4096 : Shape := ⟨2, ![1, 4096]⟩

abbrev nBuf : Space → Nat
  | .hbm => 59
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x2, .f32⟩
  | .hbm, ⟨3, _⟩ => ⟨S4096x1x2, .f32⟩
  | .hbm, ⟨4, _⟩ => ⟨S4096x2, .f32⟩
  | .hbm, ⟨5, _⟩ => ⟨S1x4096x2, .f32⟩
  | .hbm, ⟨6, _⟩ => ⟨S4096x4096x2, .f32⟩
  | .hbm, ⟨7, _⟩ => ⟨S4096x4096x2, .f32⟩
  | .hbm, ⟨8, _⟩ => ⟨S4096x4096x2, .f32⟩
  | .hbm, ⟨9, _⟩ => ⟨S4096x4096x2, .f32⟩
  | .hbm, ⟨10, _⟩ => ⟨S_, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4096x1, .f32⟩
  | .hbm, ⟨24, _⟩ => ⟨S4096, .f32⟩
  | .hbm, ⟨25, _⟩ => ⟨S4096, .f32⟩
  | .hbm, ⟨26, _⟩ => ⟨S4096x1, .f32⟩
  | .hbm, ⟨27, _⟩ => ⟨S4096, .f32⟩
  | .hbm, ⟨28, _⟩ => ⟨S_, .f32⟩
  | .hbm, ⟨29, _⟩ => ⟨S4096, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S4096x1, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S_, .f32⟩
  | .hbm, ⟨47, _⟩ => ⟨S_, .f32⟩
  | .hbm, ⟨48, _⟩ => ⟨S4096x1, .f32⟩
  | .hbm, ⟨49, _⟩ => ⟨S4096, .f32⟩
  | .hbm, ⟨50, _⟩ => ⟨S1x4096, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_6 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_7 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_8 : Ref sig .tc := ⟨.hbm, 54, rfl⟩
abbrev main_v43 : Ref sig .tc := ⟨.hbm, 55, rfl⟩
abbrev main_cst_9 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]

class Facts₀ : Prop where
  slices_S4096x4096_S4096x2_0_0 : S4096x4096.Slices ![0, 0] S4096x2
  bcast_S4096x2_S4096x1x2_0_2 : S4096x2.BroadcastsInDim S4096x1x2 (![0, 2] : Fin 2 → Fin S4096x1x2.rank)
  bcast_S4096x2_S1x4096x2_1_2 : S4096x2.BroadcastsInDim S1x4096x2 (![1, 2] : Fin 2 → Fin S1x4096x2.rank)
  bcast_S4096x1x2_S4096x4096x2_0_1_2 : S4096x1x2.BroadcastsInDim S4096x4096x2 (![0, 1, 2] : Fin 3 → Fin S4096x4096x2.rank)
  bcast_S1x4096x2_S4096x4096x2_0_1_2 : S1x4096x2.BroadcastsInDim S4096x4096x2 (![0, 1, 2] : Fin 3 → Fin S4096x4096x2.rank)
  reducesTo_S4096x4096x2_S4096x4096_d2 : S4096x4096x2.ReducesTo [2] S4096x4096
  h_S_ : 0 < S_.numel
  bcast_S_S4096x4096 : S_.BroadcastsInDim S4096x4096 (![] : Fin 0 → Fin S4096x4096.rank)
  reducesTo_S4096x4096_S_d0_1 : S4096x4096.ReducesTo [0, 1] S_
  slices_S4096x4096_S4096x1_0_4 : S4096x4096.Slices ![0, 4] S4096x1
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  slices_S4096x4096_S4096x1_0_3 : S4096x4096.Slices ![0, 3] S4096x1
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)

variable [Facts₀]

class Facts : Prop extends Facts₀ where

variable [Facts]
-- ==== Proof.Spec.lean ====
/-
  The two outputs of the pairwise line loss as functions of the two input matrices, on the extended reals.

  For matrices x, y of 4096 × 4096 extended reals:
    cost(n, m)  = ((x[n,0] − y[m,0])² + (x[n,1] − y[m,1])²) · ½          (the mean of two squared differences)
    loss        = Σ_{n,m} (α · mse − log x[n,4])  +  (Σ_{n,m} (x[m,3] − y[n,m])²) / 2²⁴,   mse = (Σ (x − y)²) / 2²⁴
  in two spellings each: the one a tiled computation arrives at (sums taken whole, the constant 2²⁴·α folded into one
  factor, the product with ½) and the one a direct computation arrives at (the summand written with the all-ones
  weight X as  X·(α·mse − log c) − (1 − X)·log(1 − c), the quotient by 2). The float words stay words: the same
  word on both sides is never evaluated.
-/
import Idealize.ShloMosaic.PureOps.Ideal
import Idealize.ShloMosaic.Lib.ValueIdx

noncomputable section

open scoped BigOperators

namespace Cert.LineLoss

open Idealize.ShloMosaic Idealize.ShloMosaic.ValueIdx

/-- A 4096 × 4096 matrix of extended reals. -/
abbrev Mat : Type := (⟨2, ![4096, 4096]⟩ : Shape).Idx → EReal

/-- The squared difference. -/
def sqd (a b : EReal) : EReal := (a - b) * (a - b)

/-- The float words of the two programs. -/
def wZero : EReal := Ideal.ofBits .f32 0x00000000#32
def wHalf : EReal := Ideal.ofBits .f32 0x3F000000#32
def wOne : EReal := Ideal.ofBits .f32 0x3F800000#32
def wTwo : EReal := Ideal.ofBits .f32 0x40000000#32
def wCount : EReal := Ideal.ofBits .f32 0x4B800000#32   -- 2²⁴ = 4096 · 4096
def wRows : EReal := Ideal.ofBits .f32 0x45800000#32    -- 4096
def wAlpha : EReal := Ideal.ofBits .f32 0x3C23D70A#32   -- the float nearest 0.01
def wScale : EReal := Ideal.ofBits .f32 0x4823D70A#32   -- 2²⁴ times that float: 167772.15625

/-! ## The tiled spelling -/

/-- The cost entry as the sum of the two squared differences times one half. -/
def costK (x y : Mat) (n m : Fin 4096) : EReal :=
  (sqd (x (ix2 n 0)) (y (ix2 m 0)) + sqd (x (ix2 n 1)) (y (ix2 m 1))) * wHalf

/-- The sum of all squared differences of the two matrices. -/
def sumSq (x y : Mat) : EReal := ∑ n : Fin 4096, ∑ m : Fin 4096, sqd (x (ix2 n m)) (y (ix2 n m))

/-- The sum of the squared differences between y and column 3 of x laid along the rows. -/
def sumSqCol (x y : Mat) : EReal := ∑ n : Fin 4096, ∑ m : Fin 4096, sqd (y (ix2 n m)) (x (ix2 m 3))

/-- The sum of the logarithms of column 4 of x. -/
def sumLog (x : Mat) : EReal := ∑ n : Fin 4096, Ideal.log (x (ix2 n 4))

/-- The loss with the sums taken whole. -/
def lossK (x y : Mat) : EReal :=
  (wScale * Ideal.div (sumSq x y) wCount - wRows * sumLog x) + Ideal.div (sumSqCol x y) wCount

/-! ## The direct spelling -/

/-- The cost entry as the sum over the two coordinates, from zero, divided by two. -/
def costR (x y : Mat) (n m : Fin 4096) : EReal :=
  Ideal.div (wZero + ∑ k : Fin 2, sqd (x (ix2 n ⟨k.val, by omega⟩)) (y (ix2 m ⟨k.val, by omega⟩))) wTwo

/-- The mean squared difference of the two matrices. -/
def mseR (x y : Mat) : EReal :=
  Ideal.div (wZero + ∑ i : (⟨2, ![4096, 4096]⟩ : Shape).Idx, sqd (x i) (y i)) wCount

/-- One summand of the weighted sum, at row n: X·(α·mse − log c) − (1 − X)·log(1 − c) with X = 1. -/
def termR (x y : Mat) (n : Fin 4096) : EReal :=
  wOne * (wAlpha * mseR x y - Ideal.log (x (ix2 n 4))) - (wOne - wOne) * Ideal.log (wOne - x (ix2 n 4))

/-- The loss as the direct computation spells it. -/
def lossR (x y : Mat) : EReal :=
  (wZero + ∑ i : (⟨2, ![4096, 4096]⟩ : Shape).Idx, termR x y (i 0))
    + Ideal.div (wZero + ∑ i : (⟨2, ![4096, 4096]⟩ : Shape).Idx, sqd (x (ix2 (i 1) 3)) (y i)) wCount

end Cert.LineLoss

end
-- ==== Proof.RefRead.lean ====
/-
  The direct program's two results, read index by index, are the direct spelling of the pairwise line loss:
  the cost entry at (n, m) is costR x y n m and the scalar loss is lossR x y.
-/
import proofs.«115154_j66133906424051_2_alg».proof.Proof.Spec
import proofs.«115154_j66133906424051_2_alg».proof.Proof.Gen.ReferenceIdeal.Read

noncomputable section

open scoped BigOperators

namespace Cert.LineLoss.Ref

open Idealize.ShloMosaic Idealize.ShloMosaic.ValueIdx Cert.LineLoss
open Cert.ReferenceIdeal (S4096x4096 S4096x2 S4096x1 S4096 S_)

/-- The cost entry of the direct program at (n, m). -/
theorem cost_eq (x y : Mat) (n m : Fin 4096) :
    Cert.ReferenceIdeal.Read.val_main_v10 (F := Ideal) x y (ValueIdx.ix2 n m) = costR x y n m := by
  have hx : ∀ k : Fin 2, Cert.ReferenceIdeal.Read.idx_main_v0 (Cert.ReferenceIdeal.Read.idx_main_v1
      (Cert.ReferenceIdeal.Read.idx_main_v4 (Cert.ReferenceIdeal.Read.idx_main_v8 (ix2 n m) k)))
      = ix2 n ⟨k.val, by omega⟩ :=
    fun k => funext fun a => by match a with | ⟨0, _⟩ => rfl | ⟨1, _⟩ => rfl
  have hy : ∀ k : Fin 2, Cert.ReferenceIdeal.Read.idx_main_v2 (Cert.ReferenceIdeal.Read.idx_main_v3
      (Cert.ReferenceIdeal.Read.idx_main_v5 (Cert.ReferenceIdeal.Read.idx_main_v8 (ix2 n m) k)))
      = ix2 m ⟨k.val, by omega⟩ :=
    fun k => funext fun a => by match a with | ⟨0, _⟩ => rfl | ⟨1, _⟩ => rfl
  rw [Cert.ReferenceIdeal.Read.val_main_v10_apply, Cert.ReferenceIdeal.Read.val_main_v8_apply,
    Cert.ReferenceIdeal.Read.val_main_v9_apply, Cert.ReferenceIdeal.Read.val_main_cst_0_apply,
    Cert.ReferenceIdeal.Read.val_main_cst_apply]
  simp only [Cert.ReferenceIdeal.Read.val_main_v7_apply, Cert.ReferenceIdeal.Read.val_main_v6_apply,
    Cert.ReferenceIdeal.Read.val_main_v4_apply, Cert.ReferenceIdeal.Read.val_main_v5_apply,
    Cert.ReferenceIdeal.Read.val_main_v1_apply, Cert.ReferenceIdeal.Read.val_main_v3_apply,
    Cert.ReferenceIdeal.Read.val_main_v0_apply, Cert.ReferenceIdeal.Read.val_main_v2_apply,
    hx, hy, Ideal.mulf_def, Ideal.subf_def, Ideal.hostDivf_def, Ideal.ofBits_def]
  rfl

/-- The scalar loss of the direct program. -/
theorem loss_eq (x y : Mat) :
    Cert.ReferenceIdeal.Read.val_main_v45 (F := Ideal) x y ValueIdx.ix0 = lossR x y := by
  have hlog : ∀ j : S4096x4096.Idx, Cert.ReferenceIdeal.Read.idx_main_v16 (Cert.ReferenceIdeal.Read.idx_main_v17
      (Cert.ReferenceIdeal.Read.idx_main_v25 (Cert.ReferenceIdeal.Read.idx_main_v28 j))) = ix2 (j 0) 4 :=
    fun j => funext fun a => Fin.ext (by match a with | ⟨0, _⟩ => exact Nat.div_one _ | ⟨1, _⟩ => rfl)
  have hlog' : ∀ j : S4096x4096.Idx, Cert.ReferenceIdeal.Read.idx_main_v19 (Cert.ReferenceIdeal.Read.idx_main_v20
      (Cert.ReferenceIdeal.Read.idx_main_v32 (Cert.ReferenceIdeal.Read.idx_main_v33 j))) = ix2 (j 0) 4 :=
    fun j => funext fun a => Fin.ext (by match a with | ⟨0, _⟩ => exact Nat.div_one _ | ⟨1, _⟩ => rfl)
  have hcol : ∀ j : S4096x4096.Idx, Cert.ReferenceIdeal.Read.idx_main_v37 (Cert.ReferenceIdeal.Read.idx_main_v38
      (Cert.ReferenceIdeal.Read.idx_main_v39 (Cert.ReferenceIdeal.Read.idx_main_v40 j))) = ix2 (j 1) 3 :=
    fun j => funext fun a => Fin.ext (by match a with | ⟨0, _⟩ => exact Nat.div_one _ | ⟨1, _⟩ => rfl)
  rw [Cert.ReferenceIdeal.Read.val_main_v45_apply, Cert.ReferenceIdeal.Read.val_main_v36_apply,
    Cert.ReferenceIdeal.Read.val_main_v44_apply, Cert.ReferenceIdeal.Read.val_main_v43_apply,
    Cert.ReferenceIdeal.Read.val_main_cst_7_apply, Cert.ReferenceIdeal.Read.val_main_cst_8_apply,
    Cert.ReferenceIdeal.Read.val_main_cst_9_apply]
  simp only [Cert.ReferenceIdeal.Read.val_main_v35_apply, Cert.ReferenceIdeal.Read.val_main_v29_apply,
    Cert.ReferenceIdeal.Read.val_main_v34_apply, Cert.ReferenceIdeal.Read.val_main_v11_apply,
    Cert.ReferenceIdeal.Read.val_main_cst_1_apply, Cert.ReferenceIdeal.Read.val_main_v28_apply,
    Cert.ReferenceIdeal.Read.val_main_v27_apply, Cert.ReferenceIdeal.Read.val_main_v26_apply,
    Cert.ReferenceIdeal.Read.val_main_v24_apply, Cert.ReferenceIdeal.Read.val_main_cst_5_apply,
    Cert.ReferenceIdeal.Read.val_main_v15_apply, Cert.ReferenceIdeal.Read.val_main_v14_apply,
    Cert.ReferenceIdeal.Read.val_main_cst_2_apply, Cert.ReferenceIdeal.Read.val_main_cst_3_apply,
    Cert.ReferenceIdeal.Read.val_main_v13_apply, Cert.ReferenceIdeal.Read.val_main_v12_apply,
    Cert.ReferenceIdeal.Read.val_main_v25_apply, Cert.ReferenceIdeal.Read.val_main_v18_apply,
    Cert.ReferenceIdeal.Read.val_main_v17_apply, Cert.ReferenceIdeal.Read.val_main_v16_apply,
    Cert.ReferenceIdeal.Read.val_main_v31_apply, Cert.ReferenceIdeal.Read.val_main_v30_apply,
    Cert.ReferenceIdeal.Read.val_main_cst_6_apply, Cert.ReferenceIdeal.Read.val_main_v33_apply,
    Cert.ReferenceIdeal.Read.val_main_v32_apply, Cert.ReferenceIdeal.Read.val_main_v23_apply,
    Cert.ReferenceIdeal.Read.val_main_v22_apply, Cert.ReferenceIdeal.Read.val_main_v21_apply,
    Cert.ReferenceIdeal.Read.val_main_cst_4_apply, Cert.ReferenceIdeal.Read.val_main_v20_apply,
    Cert.ReferenceIdeal.Read.val_main_v19_apply, Cert.ReferenceIdeal.Read.val_main_v42_apply,
    Cert.ReferenceIdeal.Read.val_main_v41_apply, Cert.ReferenceIdeal.Read.val_main_v40_apply,
    Cert.ReferenceIdeal.Read.val_main_v39_apply, Cert.ReferenceIdeal.Read.val_main_v38_apply,
    Cert.ReferenceIdeal.Read.val_main_v37_apply,
    hlog, hlog', hcol, Ideal.mulf_def, Ideal.subf_def, Ideal.addf_def, Ideal.hostDivf_def,
    Ideal.hostUnary_log_def, Ideal.ofBits_def]
  rfl

end Cert.LineLoss.Ref

end
-- ==== Proof.LibERealSums.lean ====
/-
  Finite sums on the extended reals.

  The extended reals are not a group: +∞ + (−∞) = −∞, and a difference a − b is a + (−b). What a finite sum does at
  the infinities is therefore stated here once:
    • the coercion of a finite sum of reals is the sum of the coercions;
    • a finite sum with a term −∞ is −∞; a finite sum with no term −∞ is not −∞; a finite sum with a term +∞ and
      no term −∞ is +∞;
    • for a real A and a column L of N extended reals none of which is +∞, the sum over an N × M grid (M > 0) of
      A − L n is N·M·A − M·Σ L — by ring algebra under the coercion when every L n is real, and both sides +∞
      when some L n is −∞;
    • the logarithm of a real is a real or −∞, never +∞ (the logarithm of a real ≤ 0 is −∞).
-/
import Idealize.ShloMosaic.PureOps.Ideal

noncomputable section

open scoped BigOperators

namespace Idealize.ShloMosaic.ERealSums

open Idealize.ShloMosaic

/-! ## Sums and the infinities -/

/-- The coercion of a finite real sum is the sum of the coercions. -/
theorem coe_finset_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- A finite sum with a term −∞ is −∞. -/
theorem sum_eq_bot_of_mem {ι : Type*} (s : Finset ι) (f : ι → EReal) {i0 : ι} (hi : i0 ∈ s)
    (h : f i0 = ⊥) : ∑ i ∈ s, f i = ⊥ := by
  classical
  rw [← Finset.add_sum_erase s f hi, h, EReal.bot_add]

/-- A finite sum with no term −∞ is not −∞. -/
theorem sum_ne_bot {ι : Type*} (s : Finset ι) (f : ι → EReal) (h : ∀ i ∈ s, f i ≠ ⊥) :
    ∑ i ∈ s, f i ≠ ⊥ := by
  classical
  revert h
  refine Finset.induction_on s (by simp) ?_
  intro a s ha ih h
  rw [Finset.sum_insert ha]
  exact EReal.add_ne_bot_iff.mpr
    ⟨h a (Finset.mem_insert_self a s), ih (fun i hi => h i (Finset.mem_insert_of_mem hi))⟩

/-- A finite sum with a term +∞ and no term −∞ is +∞. -/
theorem sum_eq_top_of_mem {ι : Type*} (s : Finset ι) (f : ι → EReal) {i0 : ι} (hi : i0 ∈ s)
    (h : f i0 = ⊤) (hnb : ∀ i ∈ s, f i ≠ ⊥) : ∑ i ∈ s, f i = ⊤ := by
  classical
  rw [← Finset.add_sum_erase s f hi, h]
  exact EReal.top_add_of_ne_bot
    (sum_ne_bot _ _ (fun i hi' => hnb i (Finset.mem_of_mem_erase hi')))

/-! ## A constant minus a column, summed over a grid -/

/-- The key identity: summing the constant-minus-column term A − L n over an N × M grid gives
    N·M·A − M·Σ L, also when some L n is −∞ (both sides are then +∞), as long as no L n is +∞. -/
theorem sum_const_sub (N M : ℕ) (hM : 0 < M) (A : ℝ) (L : Fin N → EReal) (hL : ∀ n, L n ≠ ⊤) :
    ∑ n : Fin N, ∑ _m : Fin M, ((A : EReal) - L n)
      = (((N : ℝ) * (M : ℝ) * A : ℝ) : EReal) - ((M : ℝ) : EReal) * ∑ n, L n := by
  by_cases hb : ∃ n0, L n0 = ⊥
  · obtain ⟨n0, hn0⟩ := hb
    have hterm : ∀ n, (A : EReal) - L n ≠ ⊥ := by
      intro n
      rw [sub_eq_add_neg]
      refine EReal.add_ne_bot_iff.mpr ⟨EReal.coe_ne_bot A, ?_⟩
      intro hneg
      exact hL n (EReal.neg_eq_bot_iff.mp hneg)
    have hinner : ∀ n, ∑ _m : Fin M, ((A : EReal) - L n) ≠ ⊥ :=
      fun n => sum_ne_bot _ _ (fun _ _ => hterm n)
    have h0 : ∑ _m : Fin M, ((A : EReal) - L n0) = ⊤ := by
      refine sum_eq_top_of_mem Finset.univ _ (i0 := (⟨0, hM⟩ : Fin M)) (Finset.mem_univ _) ?_
        (fun _ _ => hterm n0)
      rw [hn0]; exact EReal.coe_sub_bot A
    have hl : ∑ n : Fin N, ∑ _m : Fin M, ((A : EReal) - L n) = ⊤ :=
      sum_eq_top_of_mem Finset.univ _ (Finset.mem_univ n0) h0 (fun n _ => hinner n)
    have hr : ∑ n, L n = ⊥ := sum_eq_bot_of_mem Finset.univ L (Finset.mem_univ n0) hn0
    rw [hl, hr, EReal.coe_mul_bot_of_pos (by exact_mod_cast hM), EReal.coe_sub_bot]
  · have hb' : ∀ n, L n ≠ ⊥ := fun n h => hb ⟨n, h⟩
    have hreal : ∀ n, ∃ r : ℝ, L n = (r : EReal) :=
      fun n => ⟨(L n).toReal, (EReal.coe_toReal (hL n) (hb' n)).symm⟩
    choose l hl using hreal
    simp only [hl]
    simp only [← EReal.coe_sub, ← coe_finset_sum, ← EReal.coe_mul]
    congr 1
    simp only [Finset.sum_sub_distrib, Finset.sum_const, Finset.card_univ, Fintype.card_fin,
      nsmul_eq_mul, Finset.mul_sum]
    ring

/-! ## The logarithm -/

/-- The logarithm of a real is a real or −∞, never +∞. -/
theorem log_coe_ne_top (r : ℝ) : Ideal.log (r : EReal) ≠ ⊤ := by
  rw [Ideal.log_coe]
  split_ifs
  · exact bot_ne_top
  · exact EReal.coe_ne_top _

end Idealize.ShloMosaic.ERealSums

end
-- ==== Proof.LossAlgebra.lean ====
/-
  The two spellings of the pairwise line loss agree on the extended reals.
-/
import proofs.«115154_j66133906424051_2_alg».proof.Proof.Spec
import proofs.«115154_j66133906424051_2_alg».proof.Proof.LibERealSums

noncomputable section

open scoped BigOperators

namespace Cert.LineLoss

open Idealize.ShloMosaic Idealize.ShloMosaic.ValueIdx Idealize.ShloMosaic.ERealSums

/-! ## The float words, evaluated once -/

theorem wZero_eq : wZero = 0 := by
  simp [wZero, Ideal.ofBits, Ideal.ieee]

theorem wHalf_eq : wHalf = ((1 / 2 : ℝ) : EReal) := by
  simp [wHalf, Ideal.ofBits, Ideal.ieee, -EReal.coe_mul]; norm_num

theorem wOne_eq : wOne = 1 := by
  simp [wOne, Ideal.ofBits, Ideal.ieee, -EReal.coe_mul]; norm_num

theorem wTwo_eq : wTwo = ((2 : ℝ) : EReal) := by
  simp [wTwo, Ideal.ofBits, Ideal.ieee, -EReal.coe_mul]; norm_num

theorem wCount_eq : wCount = ((16777216 : ℝ) : EReal) := by
  simp [wCount, Ideal.ofBits, Ideal.ieee, -EReal.coe_mul]; norm_num

theorem wRows_eq : wRows = ((4096 : ℝ) : EReal) := by
  simp [wRows, Ideal.ofBits, Ideal.ieee, -EReal.coe_mul]; norm_num

theorem wAlpha_eq : wAlpha = ((10737418 / 1073741824 : ℝ) : EReal) := by
  simp [wAlpha, Ideal.ofBits, Ideal.ieee, -EReal.coe_mul]; norm_num

theorem wScale_eq : wScale = ((10737418 / 64 : ℝ) : EReal) := by
  simp [wScale, Ideal.ofBits, Ideal.ieee, -EReal.coe_mul]; norm_num

/-! ## The cost entry -/

/-- The mean of the two squared differences: the sum from zero over the two coordinates divided by two
    is the sum of the two terms times one half, on every extended real. -/
theorem costR_eq_costK (x y : Mat) (n m : Fin 4096) : costR x y n m = costK x y n m := by
  rw [costR, costK, wZero_eq, wTwo_eq, wHalf_eq, Fin.sum_univ_two, zero_add,
    Ideal.div_coe (by norm_num)]
  rfl

/-! ## The loss -/

/-- The all-ones weight's complement vanishes. -/
theorem wOne_sub_wOne : wOne - wOne = 0 := by
  rw [wOne_eq, ← EReal.coe_one, ← EReal.coe_sub, sub_self, EReal.coe_zero]

/-- With the weight all ones, the summand is α·mse − log c. -/
theorem termR_eq (x y : Mat) (n : Fin 4096) :
    termR x y n = wAlpha * mseR x y - Ideal.log (x (ix2 n 4)) := by
  rw [termR, wOne_sub_wOne, zero_mul, sub_zero, wOne_eq, one_mul]

/-- The mean squared difference is the whole sum over the count. -/
theorem mseR_eq (x y : Mat) : mseR x y = Ideal.div (sumSq x y) wCount := by
  rw [mseR, wZero_eq, zero_add, sum_idx2]
  rfl

/-- On reals the squared difference is symmetric: (a − b)² = (b − a)². -/
theorem sqd_comm_coe (a b : ℝ) : sqd (a : EReal) (b : EReal) = sqd (b : EReal) (a : EReal) := by
  rw [sqd, sqd, ← EReal.coe_sub, ← EReal.coe_sub, ← EReal.coe_mul, ← EReal.coe_mul]
  congr 1
  ring

/-- The sum of squared differences of two real matrices is a real. -/
theorem sumSq_coe (x y : Mat) (a b : (⟨2, ![4096, 4096]⟩ : Shape).Idx → ℝ)
    (ha : ∀ i, x i = (a i : EReal)) (hb : ∀ i, y i = (b i : EReal)) :
    sumSq x y = ((∑ n : Fin 4096, ∑ m : Fin 4096,
      (a (ix2 n m) - b (ix2 n m)) * (a (ix2 n m) - b (ix2 n m)) : ℝ) : EReal) := by
  simp only [sumSq, sqd, ha, hb, coe_finset_sum, EReal.coe_mul, EReal.coe_sub]

/-- The two spellings of the loss agree on real matrices: the weighted sum collapses to
    2²⁴·α·mse − 4096·Σ log c (both +∞ when some c ≤ 0), and 2²⁴·α is the folded factor. -/
theorem lossR_eq_lossK (x y : Mat) (hx : ∀ i, ∃ r : ℝ, x i = (r : EReal))
    (hy : ∀ i, ∃ r : ℝ, y i = (r : EReal)) : lossR x y = lossK x y := by
  choose a ha using hx
  choose b hb using hy
  -- the column term: re-index and swap the two arguments of the squared difference
  have hcol : (∑ i : (⟨2, ![4096, 4096]⟩ : Shape).Idx, sqd (x (ix2 (i 1) 3)) (y i))
      = sumSqCol x y := by
    rw [sum_idx2, sumSqCol]
    refine Finset.sum_congr rfl (fun n _ => Finset.sum_congr rfl (fun m _ => ?_))
    show sqd (x (ix2 m 3)) (y (ix2 n m)) = sqd (y (ix2 n m)) (x (ix2 m 3))
    rw [ha, hb]
    exact sqd_comm_coe _ _
  -- the mean is a real
  obtain ⟨S, hS⟩ : ∃ S : ℝ, sumSq x y = (S : EReal) := ⟨_, sumSq_coe x y a b ha hb⟩
  have hmse : mseR x y = ((S * (1 / 16777216) : ℝ) : EReal) := by
    rw [mseR_eq, hS, wCount_eq, Ideal.div_coe (by norm_num), ← EReal.coe_mul]
  have hlog : ∀ n : Fin 4096, Ideal.log (x (ix2 n 4)) ≠ ⊤ := by
    intro n
    rw [ha]
    exact log_coe_ne_top _
  -- the weighted sum
  have hmain : (∑ i : (⟨2, ![4096, 4096]⟩ : Shape).Idx, termR x y (i 0))
      = ((10737418 / 64 * (S * (1 / 16777216)) : ℝ) : EReal) - ((4096 : ℝ) : EReal) * sumLog x := by
    rw [sum_idx2]
    have hkey := sum_const_sub 4096 4096 (by norm_num)
      (10737418 / 1073741824 * (S * (1 / 16777216))) (fun n => Ideal.log (x (ix2 n 4))) hlog
    have hnum : ((4096 : ℕ) : ℝ) * ((4096 : ℕ) : ℝ) * (10737418 / 1073741824 * (S * (1 / 16777216)))
        = 10737418 / 64 * (S * (1 / 16777216)) := by
      push_cast
      ring
    rw [hnum] at hkey
    have hcast : (((4096 : ℕ) : ℝ) : EReal) = ((4096 : ℝ) : EReal) := by
      norm_num
    rw [hcast] at hkey
    rw [sumLog, ← hkey]
    refine Finset.sum_congr rfl (fun n _ => Finset.sum_congr rfl (fun m _ => ?_))
    show termR x y n = _
    rw [termR_eq, hmse, wAlpha_eq, ← EReal.coe_mul]
  rw [lossR, lossK, hmain, hcol, wZero_eq, zero_add, zero_add, ← mseR_eq, hmse, wScale_eq, wRows_eq,
    ← EReal.coe_mul]

end Cert.LineLoss

end
-- ==== Proof.Finite.lean ====
/-
  From the printed finiteness precondition to "every entry of both matrices is a real".
-/
import proofs.«115154_j66133906424051_2_alg».proof.Pre_finite_inputs
import Idealize.ShloMosaic.Lib.ReduceAll
import Idealize.ShloMosaic.Lib.ValueIdx
import Idealize.ShloMosaic.PureOps.Ideal

noncomputable section

namespace Cert.LineLoss

open Idealize.ShloMosaic Idealize.ShloMosaic.ValueIdx

/-- The scalar shape has exactly one index. -/
instance : Subsingleton Cert.Pre_finite_inputs.S_.Idx := ⟨fun _ _ => funext fun d => d.elim0⟩

/-- The float word 0x7F800000 denotes +∞. -/
theorem ofBits_inf : Ideal.ofBits .f32 0x7F800000#32 = ⊤ := by
  simp [Ideal.ofBits, Ideal.ieee]

/-- An extended real whose absolute value max a (−a) lies strictly below +∞ is a real. -/
theorem real_of_abs_lt_top (a : EReal)
    (h : Ideal.cmp .olt (max a (-a)) (Ideal.ofBits .f32 0x7F800000#32) = 1#1) : ∃ r : ℝ, a = (r : EReal) := by
  rw [ofBits_inf] at h
  induction a using EReal.rec with
  | bot => simp [Ideal.cmp] at h
  | coe r => exact ⟨r, rfl⟩
  | top => simp [Ideal.cmp] at h

/-- The precondition computes, for each matrix, the conjunction over all entries of |v| < +∞ and then the
    conjunction of the two results. If it is 1, both conjunctions are 1, so every entry v of either matrix
    has max v (−v) < +∞; that excludes v = +∞ and v = −∞, so v is a real. -/
theorem real_of_finite_inputs [Cert.Pre_finite_inputs.Facts]
    (x y : FVec Ideal Cert.Pre_finite_inputs.S4096x4096 .f32)
    (h : Cert.Pre_finite_inputs.fn (F := Ideal) x y = fun _ => 1#1) :
    (∀ i, ∃ r : ℝ, x i = (r : EReal)) ∧ (∀ i, ∃ r : ℝ, y i = (r : EReal)) := by
  have h0 := congrFun h ValueIdx.ix0
  dsimp only [Cert.Pre_finite_inputs.fn] at h0
  obtain ⟨hx, hy⟩ := IntOp.andi_eq_one.1 (show IntOp.andi _ _ = 1#1 from h0)
  refine ⟨fun i => ?_, fun i => ?_⟩
  · exact real_of_abs_lt_top (x i) (Host.reduce_andi_all _ _ _ _ _ hx i)
  · exact real_of_abs_lt_top (y i) (Host.reduce_andi_all _ _ _ _ _ hy i)

end Cert.LineLoss

end
-- ==== Proof.KPayload.lean ====
/-
  The kernel body's stored values, read at an index on the extended reals.

  At a grid point the body stores two things. Into the cost tile, at (r, c): the two squared differences between the
  row block's coordinates (two columns of 1024 entries) and the column block's (two rows of 1024 entries), summed, times
  one half. Into the 128-lane row of partial sums: lane 0 the sum over the tile of (a − b)², lane 1 the sum over the
  tile of (b − c3)² with c3 one row laid along the rows, lane 2 the sum over the 1024 rows of the logarithm of column 4
  of a — or of the constant one where the column block is not the first —, every other lane zero.
-/
import proofs.«115154_j66133906424051_2_alg».proof.Proof.Gen.KernelIdeal.Skeleton
import proofs.«115154_j66133906424051_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.LineLoss.Body

open Cert.KernelIdeal Cert.KernelIdeal.Gen Idealize.ShloMosaic Idealize.ShloMosaic.ValueIdx Cert.LineLoss

/-- A column [a, 1] broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The cost tile's entry at (r, c). -/
theorem pay2_apply (v0 v2 : FVec Ideal S1024x1 .f32) (v4 v6 : FVec Ideal S1x1024 .f32) (r c : Fin 1024) :
    k0_pay2 (F := Ideal) v0 v2 v4 v6 (ix2 r c)
      = (sqd (v0 (ix2 r 0)) (v4 (ix2 0 c)) + sqd (v2 (ix2 r 0)) (v6 (ix2 0 c))) * wHalf := by
  unfold k0_pay2
  simp only [mulf_apply, addf_apply, subf_apply, broadcast_apply, shapeCast_self, broadcastTo_a1_ab_apply,
    broadcastTo_1b_ab_apply]
  rfl

/-- A sum reduction of a [1024, 1024] vector viewed [1, 1024, 1024] over both tile axes, read back as a scalar, is the
    double sum over the tile's coordinates. -/
theorem total2 (w : FVec Ideal S1024x1024 .f32) (hc : S1024x1024.ShapeCasts S1x1024x1024)
    (hr : S1x1024x1024.Reduces [1, 2] S1) (hφ : FKind.Formats .f32)
    (hacc : (0x00000000#32 : BitVec 32) = FKind.add.neutral .f32 hφ) (hc' : S1.ShapeCasts S1x1x1)
    (hp : ∀ a, (![0, 0, 0] : Fin 3 → Nat) a < S1x1x1.size a) :
    extractAt ![0, 0, 0] (shapeCast S1x1x1 (multiReduction .add [1, 2] S1 (shapeCast S1x1024x1024 w hc) 0x00000000#32 hr hφ hacc) hc') hp
      = ∑ r : Fin 1024, ∑ c : Fin 1024, w (ix2 r c) := by
  unfold extractAt
  unfold shapeCast
  refine (Ideal.multiReduction_add_total _ _ hr (fun b => by fin_cases b; rfl) hφ hacc _).trans ?_
  rw [Equiv.sum_comp (Shape.reshapeEquiv hc) w]
  exact sum_idx2 w

/-- The same for a column [1024, 1] viewed [1, 1024, 1]: the sum over the column. -/
theorem total1 (w : FVec Ideal S1024x1 .f32) (hc : S1024x1.ShapeCasts S1x1024x1)
    (hr : S1x1024x1.Reduces [1, 2] S1) (hφ : FKind.Formats .f32)
    (hacc : (0x00000000#32 : BitVec 32) = FKind.add.neutral .f32 hφ) (hc' : S1.ShapeCasts S1x1x1)
    (hp : ∀ a, (![0, 0, 0] : Fin 3 → Nat) a < S1x1x1.size a) :
    extractAt ![0, 0, 0] (shapeCast S1x1x1 (multiReduction .add [1, 2] S1 (shapeCast S1x1024x1 w hc) 0x00000000#32 hr hφ hacc) hc') hp
      = ∑ r : Fin 1024, w (ix2 r 0) := by
  unfold extractAt
  unfold shapeCast
  refine (Ideal.multiReduction_add_total _ _ hr (fun b => by fin_cases b; rfl) hφ hacc _).trans ?_
  rw [Equiv.sum_comp (Shape.reshapeEquiv hc) w, sum_idx2 w]
  exact Finset.sum_congr rfl fun r _ => Fin.sum_univ_one _

/-- Lane 0's value: the sum over the tile of the squared differences. -/
theorem pay3_eq (v20 v21 : FVec Ideal S1024x1024 .f32) :
    k0_pay3 (F := Ideal) v20 v21 = ∑ r : Fin 1024, ∑ c : Fin 1024, sqd (v20 (ix2 r c)) (v21 (ix2 r c)) := by
  unfold k0_pay3
  exact total2 _ _ _ _ _ _ _

/-- Lane 1's value: the sum over the tile of the squared differences against one row laid along the rows. -/
theorem pay4_eq (v21 : FVec Ideal S1024x1024 .f32) (v28 : FVec Ideal S1x1024 .f32) :
    k0_pay4 (F := Ideal) v21 v28 = ∑ r : Fin 1024, ∑ c : Fin 1024, sqd (v21 (ix2 r c)) (v28 (ix2 0 c)) := by
  unfold k0_pay4
  refine (total2 _ _ _ _ _ _ _).trans ?_
  refine Finset.sum_congr rfl fun r _ => Finset.sum_congr rfl fun c _ => ?_
  simp only [mulf_apply, subf_apply, shapeCast_self, broadcastTo_1b_ab_apply]
  rfl

/-- An equality comparison of two words answers one exactly when they are equal. -/
theorem cmpi_eq_one (a b : BitVec 32) : IntOp.cmpi .eq a b = 1#1 ↔ a = b := by
  show BitVec.ofBool (a == b) = 1#1 ↔ a = b
  by_cases h : a = b
  · subst h; simp
  · have hb : (a == b) = false := by simpa using h
    rw [hb]; simp [h]

/-- A select on "lane l is k" is the `if` on the lane number. -/
theorem select_lane {α : Type} (l : Fin 128) (k : Nat) (hk : k < 128) (A B : α) :
    Scalar.select (IntOp.cmpi .eq (BitVec.ofNat 32 l.val) (BitVec.ofNat 32 k)) A B = if l.val = k then A else B := by
  have hl := l.isLt
  have hiff : (BitVec.ofNat 32 l.val = BitVec.ofNat 32 k) ↔ l.val = k := by
    constructor
    · intro h
      have h' := congrArg BitVec.toNat h
      simp only [BitVec.toNat_ofNat] at h'
      omega
    · intro h; rw [h]
  unfold Scalar.select
  exact if_congr ((cmpi_eq_one _ _).trans hiff) rfl rfl

/-- A scalar-conditioned select of two vectors, read at an index, selects between the elements. -/
theorem scalar_select_apply {α : Type} {s : Shape} (b : BitVec 1) (f g : s.Idx → α) (i : s.Idx) :
    (Scalar.select b f g) i = Scalar.select b (f i) (g i) := by
  unfold Scalar.select; split <;> rfl

/-- Lane 2's value as the body computes it: the logarithm of a select between column 4 of the tile and the constant
    one, summed over the column. -/
def lane2 (arg1 c0 : BitVec 32) (v20 : FVec Ideal S1024x1024 .f32) : Ideal .f32 :=
  extractAt ![0, 0, 0] (shapeCast S1x1x1 (multiReduction .add [1, 2] S1
    (shapeCast S1x1024x1 (log (Scalar.select (Scalar.cmpi .eq arg1 c0)
      (extractStridedSlice S1024x1 ![0, 4] v20 slices_S1024x1024_o0_4_S1024x1)
      (broadcast S1024x1 (Scalar.ofBits (F := Ideal) .f32 0x3F800000#32)))) shapeCasts_S1024x1_S1x1024x1)
    0x00000000#32 reduces_S1x1024x1_S1 (.inl rfl) rfl) shapeCasts_S1_S1x1x1) inpos_S1x1x1_p0_0_0

/-- It is the sum over the rows of the logarithm of the selected element. -/
theorem lane2_eq (arg1 c0 : BitVec 32) (v20 : FVec Ideal S1024x1024 .f32) :
    lane2 arg1 c0 v20
      = ∑ r : Fin 1024, Ideal.log (Scalar.select (Scalar.cmpi .eq arg1 c0) (v20 (ix2 r 4)) wOne) := by
  unfold lane2
  refine (total1 _ _ _ _ _ _ _).trans ?_
  refine Finset.sum_congr rfl fun r _ => ?_
  rw [show ∀ (w : FVec Ideal S1024x1 .f32) (i : S1024x1.Idx), Idealize.ShloMosaic.log w i = Ideal.log (w i) from
    fun _ _ => rfl, scalar_select_apply, slice2_axis1_apply 4 v20 _ r (0 : Fin 1) (4 : Fin 1024) rfl]
  rfl

/-- The stored row as three nested lane selects over the three values. -/
theorem pay1_form (arg1 c0 : BitVec 32) (v20 : FVec Ideal S1024x1024 .f32) (s1 s2 : Ideal .f32) :
    k0_pay1 (F := Ideal) arg1 v20 s1 s2 c0
      = shapeCast S1x1x1x128
          (select (cmpi .eq (iota .tc S1x128 32 [1] iota_S1x128_d1_w32) (broadcast S1x128 0#32)) (broadcast S1x128 s1)
            (select (cmpi .eq (iota .tc S1x128 32 [1] iota_S1x128_d1_w32) (broadcast S1x128 1#32)) (broadcast S1x128 s2)
              (select (cmpi .eq (iota .tc S1x128 32 [1] iota_S1x128_d1_w32) (broadcast S1x128 2#32))
                (broadcast S1x128 (lane2 arg1 c0 v20))
                (broadcast S1x128 (Scalar.ofBits (F := Ideal) .f32 0x00000000#32)))))
          shapeCasts_S1x128_S1x1x1x128 := rfl

/-- The row of partial sums at lane l: lane 0 and lane 1 the two tile sums, lane 2 the sum over the rows of the
    logarithm of column 4 (or of one, by the scalar condition), every other lane zero. -/
theorem pay1_apply (arg1 c0 : BitVec 32) (v20 : FVec Ideal S1024x1024 .f32) (s1 s2 : Ideal .f32) (l : Fin 128) :
    k0_pay1 (F := Ideal) arg1 v20 s1 s2 c0 (ix4 0 0 0 l)
      = if l.val = 0 then s1 else if l.val = 1 then s2
        else if l.val = 2 then
          ∑ r : Fin 1024, Ideal.log (Scalar.select (Scalar.cmpi .eq arg1 c0) (v20 (ix2 r 4)) wOne)
        else wZero := by
  rw [pay1_form]
  refine (shapeCast_apply _ _ (ix4 (0 : Fin 1) (0 : Fin 1) (0 : Fin 1) l) (ix2 (0 : Fin 1) l) (by
    rw [Shape.rowMajor_val_four, Shape.rowMajor_val_two]; rfl)).trans ?_
  have hi : iota .tc S1x128 32 [1] iota_S1x128_d1_w32 (ix2 (0 : Fin 1) l) = BitVec.ofNat 32 l.val :=
    iota_single_apply .tc S1x128 32 1 iota_S1x128_d1_w32 (ix2 (0 : Fin 1) l)
  simp only [select_apply, cmpi, broadcast_apply]
  rw [hi, select_lane l 0 (by omega), select_lane l 1 (by omega), select_lane l 2 (by omega), lane2_eq]
  rfl

end Cert.LineLoss.Body

end
-- ==== Proof.Tiles.lean ====
/-
  The tiled quantities: the three sums of the loss taken over one 1024 × 1024 tile of the matrices, and the array of
  partial sums that holds them, one row of 128 lanes per tile (lane 0, 1, 2 the three sums, every other lane zero).
-/
import proofs.«115154_j66133906424051_2_alg».proof.Proof.Spec

noncomputable section

open scoped BigOperators

namespace Cert.LineLoss

open Idealize.ShloMosaic Idealize.ShloMosaic.ValueIdx

/-- Entry r of block i of an axis of 4096 cut into four blocks of 1024: the global coordinate. -/
def gl (i : Fin 4) (r : Fin 1024) : Fin 4096 := ⟨i.val * 1024 + r.val, by have := i.isLt; have := r.isLt; omega⟩

/-- The sum of the squared differences of the two matrices over tile (i, j). -/
def tileSq (x y : Mat) (i j : Fin 4) : EReal :=
  ∑ r : Fin 1024, ∑ c : Fin 1024, sqd (x (ix2 (gl i r) (gl j c))) (y (ix2 (gl i r) (gl j c)))

/-- The sum over tile (i, j) of the squared differences between y and column 3 of x laid along the rows. -/
def tileSqCol (x y : Mat) (i j : Fin 4) : EReal :=
  ∑ r : Fin 1024, ∑ c : Fin 1024, sqd (y (ix2 (gl i r) (gl j c))) (x (ix2 (gl j c) 3))

/-- The sum over the rows of block i of the logarithm of column 4 of x — counted in the first column block only:
    elsewhere the logarithm of one is summed. -/
def tileLog (x : Mat) (i j : Fin 4) : EReal :=
  ∑ r : Fin 1024, Ideal.log (if j.val = 0 then x (ix2 (gl i r) 4) else wOne)

/-- The array of partial sums. -/
def partials (x y : Mat) : (⟨4, ![4, 4, 1, 128]⟩ : Shape).Idx → EReal := fun q =>
  if (q 3).val = 0 then tileSq x y (q 0) (q 1)
  else if (q 3).val = 1 then tileSqCol x y (q 0) (q 1)
  else if (q 3).val = 2 then tileLog x (q 0) (q 1)
  else wZero

/-- The loss from the array of partial sums: each lane summed over the sixteen tiles, then the scalar arithmetic. -/
def lossOfPartials (P : (⟨4, ![4, 4, 1, 128]⟩ : Shape).Idx → EReal) : EReal :=
  (wScale * Ideal.div (wZero + ∑ p : (⟨2, ![4, 4]⟩ : Shape).Idx, P (ix4 (p 0) (p 1) 0 0)) wCount
      - wRows * (wZero + ∑ p : (⟨2, ![4, 4]⟩ : Shape).Idx, P (ix4 (p 0) (p 1) 0 2)))
    + Ideal.div (wZero + ∑ p : (⟨2, ![4, 4]⟩ : Shape).Idx, P (ix4 (p 0) (p 1) 0 1)) wCount

end Cert.LineLoss

end
-- ==== Proof.KBlocks.lean ====
/-
  The windows' blocks at a grid point, read as entries of the two argument matrices.

  Grid point t = (i, j) of the 4 × 4 grid sees: rows 1024·i … of the first two columns of x (window 0); columns
  1024·j … of the first two columns of y, transposed (window 1); tile (i, j) of x and of y (windows 2, 3); and
  column 3 of x, laid as a row, at columns 1024·j … (window 4). The host operations before the region cut and
  re-lay these pieces; read at an index each is one entry of x or y.
-/
import proofs.«115154_j66133906424051_2_alg».proof.Proof.KernelIdealFrame
import proofs.«115154_j66133906424051_2_alg».proof.Proof.Tiles
import Idealize.ShloMosaic.Lib.Pipeline.Value
import Idealize.ShloMosaic.Lib.ValueLayout
import Idealize.ShloMosaic.Lib.StableHlo.Run

noncomputable section

open scoped BigOperators

namespace Cert.LineLoss.Blocks

open Cert.KernelIdeal Cert.KernelIdeal.Gen Cert.KernelIdeal.GenP Idealize.ShloMosaic Idealize.ShloMosaic.TcCoe
open Idealize.SL.Sem Idealize.ShloMosaic.ValueIdx Cert.LineLoss
open Idealize.ShloMosaic.Pipeline (Dat)

variable (m : (ℓ : Loc nD τ sig) → Buf (Elt Ideal) ℓ)

/-- The two argument matrices as the launch memory holds them on core c. -/
abbrev X (c : Dev nD) : Mat := m ((c : Thread nD τ).loc main_arg0)
abbrev Y (c : Dev nD) : Mat := m ((c : Thread nD τ).loc main_arg1)

/-! ## The host operations before the region -/

theorem V_v0 (c : Dev nD) : (V m c main_v0 : S4096x2.Idx → EReal)
    = extractStridedSlice S4096x2 ![0, 0] (X m c) Facts₀.slices_S4096x4096_S4096x2_0_0 := by
  show StableHlo.after hostOps0 (fun b => m (c, b)) (Proc.devRef .tc main_v0) = _
  after_results
  try rfl

theorem V_v2 (c : Dev nD) : (V m c main_v2 : S2x4096.Idx → EReal)
    = transpose S2x4096 [1, 0] (extractStridedSlice S4096x2 ![0, 0] (Y m c) Facts₀.slices_S4096x4096_S4096x2_0_0)
        Facts₀.transposes_S4096x2_S2x4096_1_0 := by
  show StableHlo.after hostOps0 (fun b => m (c, b)) (Proc.devRef .tc main_v2) = _
  after_results
  try rfl

theorem V_v5 (c : Dev nD) : (V m c main_v5 : S1x4096.Idx → EReal)
    = shapeCast S1x4096 (shapeCast S4096 (extractStridedSlice S4096x1 ![0, 3] (X m c) Facts₀.slices_S4096x4096_S4096x1_0_3)
        Facts₀.shapeCasts_S4096x1_S4096) Facts₀.shapeCasts_S4096_S1x4096 := by
  show StableHlo.after hostOps0 (fun b => m (c, b)) (Proc.devRef .tc main_v5) = _
  after_results
  try rfl

/-! ## The grid point's block indices -/

/-- The row block and the column block of grid point t. -/
def ti (t : Fin cfg0.N) : Fin 4 := grid0.coords t 0
def tj (t : Fin cfg0.N) : Fin 4 := grid0.coords t 1

/-- The printed index maps over the grid, decided: each window's block index at point t in terms of (i, j). -/
theorem idx_facts : ∀ t : Fin cfg0.N,
    win0_0.index t (0 : Fin 2) = (grid0.coords t 0).val ∧ win0_0.index t (1 : Fin 2) = 0
    ∧ win0_1.index t (0 : Fin 2) = 0 ∧ win0_1.index t (1 : Fin 2) = (grid0.coords t 1).val
    ∧ win0_2.index t (0 : Fin 2) = (grid0.coords t 0).val ∧ win0_2.index t (1 : Fin 2) = (grid0.coords t 1).val
    ∧ win0_3.index t (0 : Fin 2) = (grid0.coords t 0).val ∧ win0_3.index t (1 : Fin 2) = (grid0.coords t 1).val
    ∧ win0_4.index t (0 : Fin 2) = 0 ∧ win0_4.index t (1 : Fin 2) = (grid0.coords t 1).val
    ∧ win0_5.index t (0 : Fin 2) = (grid0.coords t 0).val ∧ win0_5.index t (1 : Fin 2) = (grid0.coords t 1).val
    ∧ win0_6.index t (0 : Fin 4) = (grid0.coords t 0).val ∧ win0_6.index t (1 : Fin 4) = (grid0.coords t 1).val
    ∧ win0_6.index t (2 : Fin 4) = 0 ∧ win0_6.index t (3 : Fin 4) = 0 :=
  (by decide +kernel : ∀ t : Fin grid0.N, _)

/-! ## The input windows' blocks as entries of x and y -/

/-- Window 0 at point t: rows 1024·i … of columns 0 and 1 of x. -/
theorem blk0 (c : Dev nD) (t : Fin cfg0.N) (r : Fin 1024) (k : Fin 2) :
    (iblk m c 0 t : Vec Ideal S1024x2 .f32) (ix2 r k) = X m c (ix2 (gl (ti t) r) ⟨k.val, by omega⟩) := by
  obtain ⟨e0, e1, -⟩ := idx_facts t
  unfold iblk
  rw [View.read_apply]
  show V m c main_v0 _ = _
  rw [V_v0]
  refine extractStridedSlice_apply _ _ _ _ _ fun a => ?_
  match a with
  | ⟨0, _⟩ =>
    show (grid0.coords t 0).val * 1024 + r.val = 0 + (win0_0.index t (0 : Fin 2) * 1024 + 1 * r.val)
    rw [e0]; omega
  | ⟨1, _⟩ =>
    show k.val = 0 + (win0_0.index t (1 : Fin 2) * 2 + 1 * k.val)
    rw [e1]; omega

/-- Window 1 at point t: columns 0 and 1 of y, transposed, at rows 1024·j … of y. -/
theorem blk1 (c : Dev nD) (t : Fin cfg0.N) (k : Fin 2) (cc : Fin 1024) :
    (iblk m c 1 t : Vec Ideal S2x1024 .f32) (ix2 k cc) = Y m c (ix2 (gl (tj t) cc) ⟨k.val, by omega⟩) := by
  obtain ⟨-, -, e0, e1, -⟩ := idx_facts t
  unfold iblk
  rw [View.read_apply]
  show V m c main_v2 _ = _
  rw [V_v2]
  refine (transpose_apply _ _ _ _ (ix2 (gl (tj t) cc) (⟨k.val, by omega⟩ : Fin 2)) fun b => ?_).trans ?_
  · match b with
    | ⟨0, _⟩ =>
      show k.val = win0_1.index t (0 : Fin 2) * 2 + 1 * k.val
      rw [e0]; omega
    | ⟨1, _⟩ =>
      show (grid0.coords t 1).val * 1024 + cc.val = win0_1.index t (1 : Fin 2) * 1024 + 1 * cc.val
      rw [e1]; omega
  · refine extractStridedSlice_apply _ _ _ _ _ fun a => ?_
    match a with
    | ⟨0, _⟩ => exact (Nat.zero_add _).symm
    | ⟨1, _⟩ => exact (Nat.zero_add _).symm

/-- Window 2 at point t: tile (i, j) of x. -/
theorem blk2 (c : Dev nD) (t : Fin cfg0.N) (r cc : Fin 1024) :
    (iblk m c 2 t : Vec Ideal S1024x1024 .f32) (ix2 r cc) = X m c (ix2 (gl (ti t) r) (gl (tj t) cc)) := by
  obtain ⟨-, -, -, -, e0, e1, -⟩ := idx_facts t
  unfold iblk
  rw [View.read_apply]
  show V m c main_arg0 _ = _
  rw [V_main_arg0]
  refine congrArg (X m c) (funext fun a => Fin.ext ?_)
  match a with
  | ⟨0, _⟩ =>
    show win0_2.index t (0 : Fin 2) * 1024 + 1 * r.val = (grid0.coords t 0).val * 1024 + r.val
    rw [e0]; omega
  | ⟨1, _⟩ =>
    show win0_2.index t (1 : Fin 2) * 1024 + 1 * cc.val = (grid0.coords t 1).val * 1024 + cc.val
    rw [e1]; omega

/-- Window 3 at point t: tile (i, j) of y. -/
theorem blk3 (c : Dev nD) (t : Fin cfg0.N) (r cc : Fin 1024) :
    (iblk m c 3 t : Vec Ideal S1024x1024 .f32) (ix2 r cc) = Y m c (ix2 (gl (ti t) r) (gl (tj t) cc)) := by
  obtain ⟨-, -, -, -, -, -, e0, e1, -⟩ := idx_facts t
  unfold iblk
  rw [View.read_apply]
  show V m c main_arg1 _ = _
  rw [V_main_arg1]
  refine congrArg (Y m c) (funext fun a => Fin.ext ?_)
  match a with
  | ⟨0, _⟩ =>
    show win0_3.index t (0 : Fin 2) * 1024 + 1 * r.val = (grid0.coords t 0).val * 1024 + r.val
    rw [e0]; omega
  | ⟨1, _⟩ =>
    show win0_3.index t (1 : Fin 2) * 1024 + 1 * cc.val = (grid0.coords t 1).val * 1024 + cc.val
    rw [e1]; omega

/-- Window 4 at point t: column 3 of x, laid as one row, at rows 1024·j … of x. -/
theorem blk4 (c : Dev nD) (t : Fin cfg0.N) (cc : Fin 1024) :
    (iblk m c 4 t : Vec Ideal S1x1024 .f32) (ix2 (0 : Fin 1) cc) = X m c (ix2 (gl (tj t) cc) 3) := by
  obtain ⟨-, -, -, -, -, -, -, -, e0, e1, -⟩ := idx_facts t
  unfold iblk
  rw [View.read_apply]
  show V m c main_v5 _ = _
  rw [V_v5]
  refine (shapeCast_apply _ _ _ (ix1 (gl (tj t) cc)) ?_).trans ?_
  · rw [Shape.rowMajor_val_one, Shape.rowMajor_val_two]
    show (grid0.coords t 1).val * 1024 + cc.val = (win0_4.index t (0 : Fin 2) * 1 + 1 * 0) * 4096 + (win0_4.index t (1 : Fin 2) * 1024 + 1 * cc.val)
    rw [e0, e1]; omega
  refine (shapeCast_apply _ _ _ (ix2 (gl (tj t) cc) (0 : Fin 1)) ?_).trans ?_
  · rw [Shape.rowMajor_val_one, Shape.rowMajor_val_two]
    show (gl (tj t) cc).val * 1 + 0 = (gl (tj t) cc).val
    omega
  refine extractStridedSlice_apply _ _ _ _ _ fun a => ?_
  match a with
  | ⟨0, _⟩ => exact (Nat.zero_add _).symm
  | ⟨1, _⟩ => rfl

end Cert.LineLoss.Blocks

end
-- ==== Proof.KCost.lean ====
/-
  The cost output. At grid point (i, j) the body writes, at (r, c) of its tile, the two squared differences between
  row 1024·i + r of x and row 1024·j + c of y over columns 0 and 1, summed, times one half: that is entry
  (1024·i + r, 1024·j + c) of the cost array, and the sixteen tiles cover it.
-/
import proofs.«115154_j66133906424051_2_alg».proof.Proof.KernelIdealFrame
import proofs.«115154_j66133906424051_2_alg».proof.Proof.KPayload
import proofs.«115154_j66133906424051_2_alg».proof.Proof.KBlocks
import Idealize.ShloMosaic.Lib.Pipeline.Value
import Idealize.ShloMosaic.Lib.ValueLayout

noncomputable section

open scoped BigOperators

namespace Cert.LineLoss.Cost

open Cert.KernelIdeal Cert.KernelIdeal.Gen Cert.KernelIdeal.GenP Idealize.ShloMosaic Idealize.ShloMosaic.TcCoe
open Idealize.SL.Sem Idealize.ShloMosaic.ValueIdx Cert.LineLoss Cert.LineLoss.Body Cert.LineLoss.Blocks
open Idealize.ShloMosaic.Pipeline (Dat)

variable (m : (ℓ : Loc nD τ sig) → Buf (Elt Ideal) ℓ)

theorem hz2 : (![0, 0] : Fin 2 → Nat) = fun _ => 0 := funext fun a => by fin_cases a <;> rfl

/-- The cost array as one function of the two matrices. -/
def costArr (x y : Mat) : S4096x4096.Idx → EReal := fun i => costK x y (i 0) (i 1)

/-- A load of column 0 of a [1024, 2] block reads, at (r, 0), the block at (r, 0); of column 1, at (r, 1). -/
theorem ld_col0 (x : Vec Ideal S1024x2 .f32) (r : Fin 1024) : View.ld x r0_0 (ix2 r (0 : Fin 1)) = x (ix2 r (0 : Fin 2)) := by
  show x (r0_0.emb (ix2 r (0 : Fin 1))) = _
  refine congrArg x (funext fun a => Fin.ext ?_)
  match a with
  | ⟨0, _⟩ => show 0 + 1 * r.val = r.val; omega
  | ⟨1, _⟩ => rfl
theorem ld_col1 (x : Vec Ideal S1024x2 .f32) (r : Fin 1024) : View.ld x r0_1 (ix2 r (0 : Fin 1)) = x (ix2 r (1 : Fin 2)) := by
  show x (r0_1.emb (ix2 r (0 : Fin 1))) = _
  refine congrArg x (funext fun a => Fin.ext ?_)
  match a with
  | ⟨0, _⟩ => show 0 + 1 * r.val = r.val; omega
  | ⟨1, _⟩ => rfl
/-- A load of row 0 of a [2, 1024] block reads, at (0, c), the block at (0, c); of row 1, at (1, c). -/
theorem ld_row0 (x : Vec Ideal S2x1024 .f32) (cc : Fin 1024) : View.ld x r0_2 (ix2 (0 : Fin 1) cc) = x (ix2 (0 : Fin 2) cc) := by
  show x (r0_2.emb (ix2 (0 : Fin 1) cc)) = _
  refine congrArg x (funext fun a => Fin.ext ?_)
  match a with
  | ⟨0, _⟩ => rfl
  | ⟨1, _⟩ => show 0 + 1 * cc.val = cc.val; omega
theorem ld_row1 (x : Vec Ideal S2x1024 .f32) (cc : Fin 1024) : View.ld x r0_3 (ix2 (0 : Fin 1) cc) = x (ix2 (1 : Fin 2) cc) := by
  show x (r0_3.emb (ix2 (0 : Fin 1) cc)) = _
  refine congrArg x (funext fun a => Fin.ext ?_)
  match a with
  | ⟨0, _⟩ => rfl
  | ⟨1, _⟩ => show 0 + 1 * cc.val = cc.val; omega

/-- What the body leaves in the cost tile, over any two input blocks. -/
theorem out5_apply (x0 : Vec Ideal S1024x2 .f32) (x1 : Vec Ideal S2x1024 .f32) (x2 x3 : Vec Ideal S1024x1024 .f32)
    (x4 : Vec Ideal S1x1024 .f32) (r cc : Fin 1024) :
    out0_5 x0 x1 x2 x3 x4 (ix2 r cc)
      = (sqd (x0 (ix2 r 0)) (x1 (ix2 0 cc)) + sqd (x0 (ix2 r 1)) (x1 (ix2 1 cc))) * wHalf := by
  unfold out0_5
  rw [View.canon_unit_zero hz2, pay2_apply, ld_col0, ld_col1, ld_row0, ld_row1]

/-- An element of the cost window's block at point t sits, in the array, at (1024·i + r, 1024·j + c). -/
theorem emb5 (t : Fin cfg0.N) (r cc : Fin 1024) :
    ((cfg0.win 5).blk t).view.emb (ix2 r cc) = (ix2 (gl (ti t) r) (gl (tj t) cc) : S4096x4096.Idx) := by
  obtain ⟨-, -, -, -, -, -, -, -, -, -, e0, e1, -⟩ := idx_facts t
  funext a
  apply Fin.ext
  match a with
  | ⟨0, _⟩ =>
    show win0_5.index t (0 : Fin 2) * 1024 + 1 * r.val = (grid0.coords t 0).val * 1024 + r.val
    rw [e0]; omega
  | ⟨1, _⟩ =>
    show win0_5.index t (1 : Fin 2) * 1024 + 1 * cc.val = (grid0.coords t 1).val * 1024 + cc.val
    rw [e1]; omega

/-- What point t writes back to the cost array is block t of the cost array of the two matrices. -/
theorem flushed5_eq (c : Dev nD) (t : Fin cfg0.N) :
    (dats m 0 c).flushed 5 t = ((cfg0.win 5).blk t).view.read (Elt Ideal) (costArr (X m c) (Y m c)) := by
  show (cfg0.win 5).cut (grid0.coords t) ((dats m 0 c).after 5 t) = _
  rw [after0_5]
  funext j
  obtain ⟨r, cc, rfl⟩ : ∃ (r cc : Fin 1024), j = ix2 r cc := ⟨j 0, j 1, eq_ix2 j⟩
  show (out0_5 (F := Ideal) _ _ _ _ _ (ix2 r cc) : EReal) = costArr (X m c) (Y m c) (((cfg0.win 5).blk t).view.emb (ix2 r cc))
  rw [out5_apply, emb5, blk0, blk0, blk1, blk1]
  rfl

/-- An index of the array is in point t's block iff each coordinate is in the block's range on its axis. -/
theorem mem_blk5 (t : Fin cfg0.N) (i : S4096x4096.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v6_0).slice (win0_5.rect t)).set ↔ _
  rw [View.set_slice_whole, Rect.mem_set_unit]
  exact Iff.rfl

/-- Every pair of block indices is some grid point's. -/
theorem idx_onto5 : ∀ (q0 q1 : Fin 4), ∃ t : Fin cfg0.N, win0_5.index t = ![q0.val, q1.val] :=
  (by decide +kernel : ∀ (q0 q1 : Fin 4), ∃ t : Fin grid0.N, win0_5.index t = ![q0.val, q1.val])

/-- The sixteen tiles cover the cost array: (n, m) lies in the tile of the point with block indices (n / 1024, m / 1024). -/
theorem cover5 (i : S4096x4096.Idx) : ∃ t : Fin cfg0.N, (cfg0.win 5).flush t = true ∧ i ∈ ((cfg0.win 5).blk t).view.set := by
  have hi0 : (i 0).val < 4096 := (i 0).isLt
  have hi1 : (i 1).val < 4096 := (i 1).isLt
  obtain ⟨t, ht⟩ := idx_onto5 ⟨(i 0).val / 1024, by omega⟩ ⟨(i 1).val / 1024, by omega⟩
  have q0 : win0_5.index t (0 : Fin 2) = (i 0).val / 1024 := congrFun ht 0
  have q1 : win0_5.index t (1 : Fin 2) = (i 1).val / 1024 := congrFun ht 1
  refine ⟨t, flush0_5 t, ?_⟩
  rw [mem_blk5]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1024 ≤ (i 1).val ∧ (i 1).val < win0_5.index t (1 : Fin 2) * 1024 + 1024; omega

/-- The cost array after the run. -/
theorem final5 (c : Dev nD) : ((dats m 0 c).arrAt 5 cfg0.N : S4096x4096.Idx → EReal) = costArr (X m c) (Y m c) :=
  (dats m 0 c).arrAt_eq_of_cover 5 (costArr (X m c) (Y m c)) (fun t _ => flushed5_eq m c t) cover5

end Cert.LineLoss.Cost

end
-- ==== Proof.KPartials.lean ====
/-
  The array of partial sums after the run: every grid point writes back its row of 128 lanes — the three sums of the
  loss over its tile in lanes 0, 1, 2 and zero elsewhere —, the sixteen rows cover the array, so the array ends holding
  the partial sums of the two argument matrices.
-/
import proofs.«115154_j66133906424051_2_alg».proof.Proof.KernelIdealFrame
import proofs.«115154_j66133906424051_2_alg».proof.Proof.KPayload
import proofs.«115154_j66133906424051_2_alg».proof.Proof.KBlocks
import proofs.«115154_j66133906424051_2_alg».proof.Proof.Tiles
import Idealize.ShloMosaic.Lib.Pipeline.Value
import Idealize.ShloMosaic.Lib.ValueLayout

noncomputable section

open scoped BigOperators

namespace Cert.LineLoss.Partials

open Cert.KernelIdeal Cert.KernelIdeal.Gen Cert.KernelIdeal.GenP Idealize.ShloMosaic Idealize.ShloMosaic.TcCoe
open Idealize.SL.Sem Idealize.ShloMosaic.ValueIdx Cert.LineLoss
open Idealize.ShloMosaic.Pipeline (Dat)
open Cert.LineLoss.Body Cert.LineLoss.Blocks

variable (m : (ℓ : Loc nD τ sig) → Buf (Elt Ideal) ℓ)

theorem hz4 : (![0, 0, 0, 0] : Fin 4 → Nat) = fun _ => 0 := funext fun a => by fin_cases a <;> rfl
theorem hz2 : (![0, 0] : Fin 2 → Nat) = fun _ => 0 := funext fun a => by fin_cases a <;> rfl

/-! ## The stored row at a lane -/

/-- The row of 128 lanes the body stores, at any index of the block: the two tile sums in lanes 0 and 1, the sum of
    the logarithms of the selected column in lane 2, zero elsewhere. -/
theorem row_apply (a1 : BitVec 32) (x2 x3 : Vec Ideal S1024x1024 .f32) (x4 : Vec Ideal S1x1024 .f32)
    (j : S1x1x1x128.Idx) :
    k0_pay1 (F := Ideal) a1 x2 (k0_pay3 x2 x3) (k0_pay4 x3 x4) 0#32 j
      = if (j 3).val = 0 then ∑ r : Fin 1024, ∑ cc : Fin 1024, sqd (x2 (ix2 r cc)) (x3 (ix2 r cc))
        else if (j 3).val = 1 then ∑ r : Fin 1024, ∑ cc : Fin 1024, sqd (x3 (ix2 r cc)) (x4 (ix2 0 cc))
        else if (j 3).val = 2 then
          ∑ r : Fin 1024, Ideal.log (Scalar.select (Scalar.cmpi .eq a1 0#32) (x2 (ix2 r 4)) wOne)
        else wZero := by
  have h0 : (j 0).val < 1 := (j 0).isLt
  have h1 : (j 1).val < 1 := (j 1).isLt
  have h2 : (j 2).val < 1 := (j 2).isLt
  have hj : j = ix4 (0 : Fin 1) (0 : Fin 1) (0 : Fin 1) (j 3) := by
    funext a
    match a with
    | ⟨0, _⟩ => exact Fin.ext (by show (j 0).val = 0; omega)
    | ⟨1, _⟩ => exact Fin.ext (by show (j 1).val = 0; omega)
    | ⟨2, _⟩ => exact Fin.ext (by show (j 2).val = 0; omega)
    | ⟨3, _⟩ => rfl
  obtain ⟨l, rfl⟩ : ∃ l : Fin 128, j = ix4 (0 : Fin 1) (0 : Fin 1) (0 : Fin 1) l := ⟨j 3, hj⟩
  refine (pay1_apply _ _ _ _ _ l).trans ?_
  rw [pay3_eq, pay4_eq]

/-- The array of partial sums read at an index whose coordinates are known. -/
theorem partials_at (x y : Mat) (q : S4x4x1x128.Idx) (i j : Fin 4) (l : Fin 128)
    (h0 : q 0 = i) (h1 : q 1 = j) (h3 : (q 3).val = l.val) :
    partials x y q = if l.val = 0 then tileSq x y i j else if l.val = 1 then tileSqCol x y i j
      else if l.val = 2 then tileLog x i j else wZero := by
  unfold partials
  rw [h0, h1, h3]

/-! ## The three sums over a grid point's blocks are the tile's sums -/

/-- Lane 0: the blocks of x and y at point t are tile (i, j) of each. -/
theorem sq_blk (c : Dev nD) (t : Fin cfg0.N) :
    (∑ r : Fin 1024, ∑ cc : Fin 1024,
        sqd ((iblk m c 2 t : Vec Ideal S1024x1024 .f32) (ix2 r cc)) ((iblk m c 3 t : Vec Ideal S1024x1024 .f32) (ix2 r cc)))
      = tileSq (X m c) (Y m c) (ti t) (tj t) := by
  unfold tileSq
  refine Finset.sum_congr rfl fun r _ => Finset.sum_congr rfl fun cc _ => ?_
  rw [blk2, blk3]

/-- Lane 1: the block of y against the block of column 3 of x laid as a row. -/
theorem sqcol_blk (c : Dev nD) (t : Fin cfg0.N) :
    (∑ r : Fin 1024, ∑ cc : Fin 1024,
        sqd ((iblk m c 3 t : Vec Ideal S1024x1024 .f32) (ix2 r cc)) ((iblk m c 4 t : Vec Ideal S1x1024 .f32) (ix2 0 cc)))
      = tileSqCol (X m c) (Y m c) (ti t) (tj t) := by
  unfold tileSqCol
  refine Finset.sum_congr rfl fun r _ => Finset.sum_congr rfl fun cc _ => ?_
  rw [blk3, blk4]

/-- Lane 2: the scalar condition "the column block is the first" selects column 4 of the tile, which in the first
    column block is column 4 of x; elsewhere the constant one is selected. -/
theorem log_blk (c : Dev nD) (t : Fin cfg0.N) :
    (∑ r : Fin 1024, Ideal.log (Scalar.select (Scalar.cmpi .eq (BitVec.ofNat 32 (grid0.coords t 1).val) 0#32)
        ((iblk m c 2 t : Vec Ideal S1024x1024 .f32) (ix2 r 4)) wOne))
      = tileLog (X m c) (ti t) (tj t) := by
  unfold tileLog
  refine Finset.sum_congr rfl fun r _ => congrArg Ideal.log ?_
  have hlt : (grid0.coords t 1).val < 4 := (grid0.coords t 1).isLt
  refine (select_lane (⟨(grid0.coords t 1).val, by omega⟩ : Fin 128) 0 (by omega) _ _).trans ?_
  show (if (grid0.coords t 1).val = 0 then _ else _) = if (grid0.coords t 1).val = 0 then _ else _
  split_ifs with h
  · rw [blk2]
    have hg : gl (tj t) (4 : Fin 1024) = (4 : Fin 4096) :=
      Fin.ext (by show (grid0.coords t 1).val * 1024 + 4 = 4; omega)
    rw [hg]
  · rfl

/-! ## What a grid point writes back -/

/-- The stored row at point t is the point's row of the array of partial sums. -/
theorem row_eq (c : Dev nD) (t : Fin cfg0.N) (j : S1x1x1x128.Idx) :
    k0_pay1 (F := Ideal) (BitVec.ofNat 32 (grid0.coords t 1).val) (iblk m c 2 t : Vec Ideal S1024x1024 .f32)
        (k0_pay3 (iblk m c 2 t : Vec Ideal S1024x1024 .f32) (iblk m c 3 t : Vec Ideal S1024x1024 .f32))
        (k0_pay4 (iblk m c 3 t : Vec Ideal S1024x1024 .f32) (iblk m c 4 t : Vec Ideal S1x1024 .f32)) 0#32 j
      = partials (X m c) (Y m c) (((cfg0.win 6).blk t).view.emb j) := by
  obtain ⟨-, -, -, -, -, -, -, -, -, -, -, -, e0, e1, e2, e3⟩ := idx_facts t
  have h0 : (j 0).val < 1 := (j 0).isLt
  have h1 : (j 1).val < 1 := (j 1).isLt
  have h3 : (j 3).val < 128 := (j 3).isLt
  refine (row_apply _ _ _ _ j).trans ?_
  rw [sq_blk, sqcol_blk, log_blk]
  refine (partials_at (X m c) (Y m c) _ (ti t) (tj t) (j 3) ?_ ?_ ?_).symm
  · exact Fin.ext (by
      show win0_6.index t (0 : Fin 4) * 1 + 1 * (j 0).val = (grid0.coords t 0).val
      rw [e0]; omega)
  · exact Fin.ext (by
      show win0_6.index t (1 : Fin 4) * 1 + 1 * (j 1).val = (grid0.coords t 1).val
      rw [e1]; omega)
  · show win0_6.index t (3 : Fin 4) * 128 + 1 * (j 3).val = (j 3).val
    rw [e3]; omega

/-- What point t writes back is block t of the array of partial sums of the argument matrices. -/
theorem flushed6_eq (c : Dev nD) (t : Fin cfg0.N) :
    (dats m 0 c).flushed 6 t = ((cfg0.win 6).blk t).view.read (Elt Ideal) (partials (X m c) (Y m c)) := by
  show (cfg0.win 6).cut (grid0.coords t) ((dats m 0 c).after 6 t) = _
  rw [after0_6]
  unfold out0_6
  rw [View.canon_unit_zero hz4]
  simp only [View.ld_unit_zero (S := S1024x1024) hz2, View.ld_unit_zero (S := S1x1024) hz2]
  funext j
  exact row_eq m c t j

/-! ## The rows cover the array -/

/-- Every pair of block indices of the array is some grid point's. -/
theorem idx_onto : ∀ (a b : Fin 4), ∃ t : Fin cfg0.N, win0_6.index t = ![a.val, b.val, 0, 0] :=
  (by decide +kernel : ∀ (a b : Fin 4), ∃ t : Fin grid0.N, win0_6.index t = ![a.val, b.val, 0, 0])

/-- An index of the array is in point t's block iff each coordinate is in the block's range on its axis. -/
theorem mem_blk6 (t : Fin cfg0.N) (q : S4x4x1x128.Idx) :
    q ∈ ((cfg0.win 6).blk t).view.set ↔ ∀ a : Fin 4, win0_6.index t a * S1x1x1x128.size a ≤ (q a).val
      ∧ (q a).val < win0_6.index t a * S1x1x1x128.size a + S1x1x1x128.size a := by
  show q ∈ ((View.whole main_v6_1).slice (win0_6.rect t)).set ↔ _
  rw [View.set_slice_whole, Rect.mem_set_unit]
  exact Iff.rfl

/-- Every index (i, j, 0, l) of the array lies in the row written back by the grid point (i, j). -/
theorem cover6 (q : S4x4x1x128.Idx) :
    ∃ t : Fin cfg0.N, (cfg0.win 6).flush t = true ∧ q ∈ ((cfg0.win 6).blk t).view.set := by
  have hq0 : (q 0).val < 4 := (q 0).isLt
  have hq1 : (q 1).val < 4 := (q 1).isLt
  have hq2 : (q 2).val < 1 := (q 2).isLt
  have hq3 : (q 3).val < 128 := (q 3).isLt
  obtain ⟨t, ht⟩ := idx_onto ⟨(q 0).val, hq0⟩ ⟨(q 1).val, hq1⟩
  have i0 : win0_6.index t (0 : Fin 4) = (q 0).val := congrFun ht 0
  have i1 : win0_6.index t (1 : Fin 4) = (q 1).val := congrFun ht 1
  have i2 : win0_6.index t (2 : Fin 4) = 0 := congrFun ht 2
  have i3 : win0_6.index t (3 : Fin 4) = 0 := congrFun ht 3
  refine ⟨t, flush0_6 t, ?_⟩
  rw [mem_blk6]
  intro a
  match a with
  | ⟨0, _⟩ =>
    show win0_6.index t (0 : Fin 4) * 1 ≤ (q 0).val ∧ (q 0).val < win0_6.index t (0 : Fin 4) * 1 + 1
    omega
  | ⟨1, _⟩ =>
    show win0_6.index t (1 : Fin 4) * 1 ≤ (q 1).val ∧ (q 1).val < win0_6.index t (1 : Fin 4) * 1 + 1
    omega
  | ⟨2, _⟩ =>
    show win0_6.index t (2 : Fin 4) * 1 ≤ (q 2).val ∧ (q 2).val < win0_6.index t (2 : Fin 4) * 1 + 1
    omega
  | ⟨3, _⟩ =>
    show win0_6.index t (3 : Fin 4) * 128 ≤ (q 3).val ∧ (q 3).val < win0_6.index t (3 : Fin 4) * 128 + 128
    omega

/-! ## The array after the run -/

/-- The array of partial sums after the run holds the partial sums of the two argument matrices. -/
theorem final6 (c : Dev nD) :
    ((dats m 0 c).arrAt 6 cfg0.N : S4x4x1x128.Idx → EReal) = partials (X m c) (Y m c) :=
  (dats m 0 c).arrAt_eq_of_cover 6 (partials (X m c) (Y m c)) (fun t _ => flushed6_eq m c t) cover6

end Cert.LineLoss.Partials

end
-- ==== Proof.KTail.lean ====
/-
  The host operations after the kernel region, read at the extended reals: from the array of partial sums the region
  leaves, lanes 0, 1, 2 are each summed over the sixteen tiles, and the scalar arithmetic on the three sums is the
  loss computed from the partial sums.
-/
import proofs.«115154_j66133906424051_2_alg».proof.Proof.KernelIdealFrame
import proofs.«115154_j66133906424051_2_alg».proof.Proof.Tiles
import Idealize.ShloMosaic.Lib.Pipeline.Value
import Idealize.ShloMosaic.Lib.ValueLayout
import Idealize.ShloMosaic.Lib.StableHlo.Run
import Idealize.ShloMosaic.PureOps.Ideal.Laws

noncomputable section

open scoped BigOperators

namespace Cert.LineLoss.Tail

open Cert.KernelIdeal Cert.KernelIdeal.Gen Cert.KernelIdeal.GenP Idealize.ShloMosaic Idealize.ShloMosaic.TcCoe Idealize.SL.Sem Idealize.ShloMosaic.ValueIdx Cert.LineLoss

/-- One lane of the array of partial sums, cut out, laid as a 4 × 4 matrix and summed whole from an initial value:
    the initial value plus the sum over the sixteen tiles of that lane. -/
theorem lane_sum (P : (⟨S4x4x1x128, .f32⟩ : BufTy).Contents (Elt Ideal)) (l : Fin 128) (off : Fin 4 → Nat)
    (h0 : off 0 = 0) (h1 : off 1 = 0) (h2 : off 2 = 0) (h3 : off 3 = l.val)
    (hs : S4x4x1x128.Slices off S4x4x1x1) (hc : S4x4x1x1.ShapeCasts S4x4) (hr : S4x4.ReducesTo [0, 1] S_)
    (hu : 0 < S_.numel) (init : (⟨S_, .f32⟩ : BufTy).Contents (Elt Ideal)) (j : S_.Idx) :
    Host.reduceAdd (F := Ideal) (φ := .f32) (shapeCast S4x4 (extractStridedSlice S4x4x1x1 off P hs) hc) init hr hu j
      = init (Shape.Idx.first hu) + ∑ p : S4x4.Idx, P (ix4 (p 0) (p 1) 0 l) := by
  unfold Host.reduceAdd
  rw [Ideal.hostReduceAdd_def, Ideal.hostReduceAdd_total hr (fun b => b.elim0)]
  refine congrArg (_ + ·) (Finset.sum_congr rfl fun p _ => ?_)
  rw [shapeCast_apply _ hc p (ix4 (p 0) (p 1) 0 0) (by
    rewrite [Shape.rowMajor_val_four, Shape.rowMajor_val_two]
    show (((p 0).val * 4 + (p 1).val) * 1 + 0) * 1 + 0 = (p 0).val * 4 + (p 1).val
    omega)]
  exact extractStridedSlice_apply off P hs (ix4 (p 0) (p 1) 0 0 : S4x4x1x1.Idx) (ix4 (p 0) (p 1) 0 l) (fun a => by
    match a with
    | ⟨0, _⟩ => show (p 0).val = off 0 + (p 0).val; omega
    | ⟨1, _⟩ => show (p 1).val = off 1 + (p 1).val; omega
    | ⟨2, _⟩ => show 0 = off 2 + 0; omega
    | ⟨3, _⟩ => show l.val = off 3 + 0; omega)

/-- The scalar arithmetic after the region on the three lane sums is the loss computed from the partial sums: the
    words are the same words, and each lane sum is the word for zero plus the sum over the sixteen tiles. -/
theorem tail_val (P : (⟨S4x4x1x128, .f32⟩ : BufTy).Contents (Elt Ideal))
    (hs0 : S4x4x1x128.Slices ![0, 0, 0, 0] S4x4x1x1) (hs1 : S4x4x1x128.Slices ![0, 0, 0, 1] S4x4x1x1)
    (hs2 : S4x4x1x128.Slices ![0, 0, 0, 2] S4x4x1x1) (hc : S4x4x1x1.ShapeCasts S4x4)
    (hr : S4x4.ReducesTo [0, 1] S_) (hu : 0 < S_.numel) (j : S_.Idx) :
    addf (F := Ideal) (φ := .f32) (s := S_)
      (subf
        (mulf (constant S_ .f32 0x4823D70A#32)
          (Host.divf
            (Host.reduceAdd (shapeCast S4x4 (extractStridedSlice S4x4x1x1 ![0, 0, 0, 0] P hs0) hc)
              (constant S_ .f32 0x00000000#32) hr hu)
            (constant S_ .f32 0x4B800000#32)))
        (mulf (constant S_ .f32 0x45800000#32)
          (Host.reduceAdd (shapeCast S4x4 (extractStridedSlice S4x4x1x1 ![0, 0, 0, 2] P hs2) hc)
            (constant S_ .f32 0x00000000#32) hr hu)))
      (Host.divf
        (Host.reduceAdd (shapeCast S4x4 (extractStridedSlice S4x4x1x1 ![0, 0, 0, 1] P hs1) hc)
          (constant S_ .f32 0x00000000#32) hr hu)
        (constant S_ .f32 0x4B800000#32)) j
      = lossOfPartials P := by
  have e0 := lane_sum P 0 ![0, 0, 0, 0] rfl rfl rfl rfl hs0 hc hr hu (constant (F := Ideal) S_ .f32 0x00000000#32) j
  have e1 := lane_sum P 1 ![0, 0, 0, 1] rfl rfl rfl rfl hs1 hc hr hu (constant (F := Ideal) S_ .f32 0x00000000#32) j
  have e2 := lane_sum P 2 ![0, 0, 0, 2] rfl rfl rfl rfl hs2 hc hr hu (constant (F := Ideal) S_ .f32 0x00000000#32) j
  show (Ideal.ofBits .f32 0x4823D70A#32
        * Ideal.div (Host.reduceAdd (F := Ideal) (φ := .f32)
            (shapeCast S4x4 (extractStridedSlice S4x4x1x1 ![0, 0, 0, 0] P hs0) hc)
            (constant S_ .f32 0x00000000#32) hr hu j) (Ideal.ofBits .f32 0x4B800000#32)
      - Ideal.ofBits .f32 0x45800000#32
        * Host.reduceAdd (F := Ideal) (φ := .f32)
            (shapeCast S4x4 (extractStridedSlice S4x4x1x1 ![0, 0, 0, 2] P hs2) hc)
            (constant S_ .f32 0x00000000#32) hr hu j)
    + Ideal.div (Host.reduceAdd (F := Ideal) (φ := .f32)
        (shapeCast S4x4 (extractStridedSlice S4x4x1x1 ![0, 0, 0, 1] P hs1) hc)
        (constant S_ .f32 0x00000000#32) hr hu j) (Ideal.ofBits .f32 0x4B800000#32) = _
  rw [e0, e1, e2]
  rfl

variable (m : (ℓ : Loc nD τ sig) → Buf (Elt Ideal) ℓ)

/-- What the host operations after the region leave in the scalar result: the loss computed from the array of
    partial sums as the region leaves it. -/
theorem tail_loss (c : Dev nD) :
    (Pipeline.afterTail₀ cfgs (dats m) 0 (V0 m) [hostOps1] c main_v21 : S_.Idx → EReal)
      = fun _ => lossOfPartials ((dats m 0 c).arrAt 6 cfg0.N) := by
  have hP := Pipeline.withArrays_arr spec0 launch0.win.arr_inj c (V0 m c) (fun w => (dats m 0 c).arrAt w cfg0.N) 6
  unfold Pipeline.afterTail₀
  generalize Pipeline.withArrays spec0 c (V0 m c) (fun w => (dats m 0 c).arrAt w cfg0.N) = W at hP ⊢
  generalize (dats m 0 c).arrAt 6 cfg0.N = P at hP ⊢
  simp only [List.flatten_cons, List.flatten_nil, List.append_nil]
  after_results_simp
  have hP' : W (Proc.devRef .tc main_v6_1) = P := hP
  rw [hP']
  funext j
  exact tail_val P _ _ _ _ _ _ j

end Cert.LineLoss.Tail

end
-- ==== Proof.TileSums.lean ====
/-
  The tiled sums regroup into the whole sums: an axis of 4096 cut into four blocks of 1024 is re-indexed by
  (block, entry) ↦ block · 1024 + entry, a bijection onto the axis, so a sum over the sixteen tiles of the sums over
  each tile is the sum over the whole matrix; and the loss computed from the array of partial sums is the loss with
  the sums taken whole.
-/
import proofs.«115154_j66133906424051_2_alg».proof.Proof.Tiles
import Idealize.ShloMosaic.PureOps.Ideal.Laws
import Mathlib.Algebra.BigOperators.Fin
import Mathlib.Analysis.SpecialFunctions.Log.Basic

noncomputable section

open scoped BigOperators

namespace Cert.LineLoss

open Idealize.ShloMosaic Idealize.ShloMosaic.ValueIdx

/-- (block, entry) ↦ block · 1024 + entry is a bijection from 4 × 1024 onto the axis of 4096; its inverse is
    quotient and remainder by 1024. -/
def glEquiv : Fin 4 × Fin 1024 ≃ Fin 4096 where
  toFun p := gl p.1 p.2
  invFun n := (⟨n.val / 1024, by have := n.isLt; omega⟩, ⟨n.val % 1024, Nat.mod_lt _ (by decide)⟩)
  left_inv p := by
    obtain ⟨⟨i, hi⟩, ⟨r, hr⟩⟩ := p
    simp only [gl, Prod.mk.injEq, Fin.mk.injEq]
    constructor <;> omega
  right_inv n := by
    apply Fin.ext
    simp only [gl]
    omega

/-- A sum over the axis, block by block. -/
theorem sum_gl {M : Type*} [AddCommMonoid M] (f : Fin 4096 → M) :
    ∑ i : Fin 4, ∑ r : Fin 1024, f (gl i r) = ∑ n : Fin 4096, f n := by
  rw [← Equiv.sum_comp glEquiv f, Fintype.sum_prod_type]
  rfl

/-- A sum over the matrix, tile by tile. -/
theorem sum_tiles {M : Type*} [AddCommMonoid M] (g : Fin 4096 → Fin 4096 → M) :
    ∑ i : Fin 4, ∑ j : Fin 4, ∑ r : Fin 1024, ∑ c : Fin 1024, g (gl i r) (gl j c)
      = ∑ n : Fin 4096, ∑ m : Fin 4096, g n m := by
  refine Eq.trans ?_ (sum_gl (fun n => ∑ m : Fin 4096, g n m))
  refine Finset.sum_congr rfl fun i _ => ?_
  refine Finset.sum_comm.trans (Finset.sum_congr rfl fun r _ => ?_)
  exact sum_gl (fun m => g (gl i r) m)

theorem sum_tileSq (x y : Mat) : (∑ i : Fin 4, ∑ j : Fin 4, tileSq x y i j) = sumSq x y :=
  sum_tiles (fun n m => sqd (x (ix2 n m)) (y (ix2 n m)))

theorem sum_tileSqCol (x y : Mat) : (∑ i : Fin 4, ∑ j : Fin 4, tileSqCol x y i j) = sumSqCol x y :=
  sum_tiles (fun n m => sqd (y (ix2 n m)) (x (ix2 m 3)))

/-- The word for one denotes the real 1, whose logarithm is 0. -/
theorem log_wOne : Ideal.log wOne = 0 := by
  have h : wOne = ((1 : ℝ) : EReal) := by
    unfold wOne
    simp [Ideal.ofBits, Ideal.ieee, -EReal.coe_mul]
    norm_num
  rw [h, Ideal.log_coe]
  simp

/-- Outside the first column block every summand is the logarithm of one, which is zero. -/
theorem sum_tileLog (x : Mat) : (∑ i : Fin 4, ∑ j : Fin 4, tileLog x i j) = sumLog x := by
  refine Eq.trans ?_ (sum_gl (fun n => Ideal.log (x (ix2 n 4))))
  refine Finset.sum_congr rfl fun i _ => ?_
  rw [Finset.sum_eq_single (0 : Fin 4)]
  · unfold tileLog
    exact Finset.sum_congr rfl fun r _ => congrArg Ideal.log (if_pos rfl)
  · intro j _ hj
    have hj' : ¬ j.val = 0 := fun h => hj (Fin.ext h)
    unfold tileLog
    exact Finset.sum_eq_zero fun r _ => by rw [if_neg hj', log_wOne]
  · intro h
    exact absurd (Finset.mem_univ _) h

/-- Lanes 0, 1, 2 of the array of partial sums hold the three tiled sums; summed over the sixteen tiles they are the
    whole sums, and the word for zero denotes 0. -/
theorem lossOfPartials_partials (x y : Mat) : lossOfPartials (partials x y) = lossK x y := by
  have h0 : ∀ a b : Fin 4, partials x y (ix4 a b 0 0) = tileSq x y a b := fun a b => by
    show (if (0 : Fin 128).val = 0 then tileSq x y a b else if (0 : Fin 128).val = 1 then tileSqCol x y a b
      else if (0 : Fin 128).val = 2 then tileLog x a b else wZero) = tileSq x y a b
    rw [if_pos (by decide)]
  have h1 : ∀ a b : Fin 4, partials x y (ix4 a b 0 1) = tileSqCol x y a b := fun a b => by
    show (if (1 : Fin 128).val = 0 then tileSq x y a b else if (1 : Fin 128).val = 1 then tileSqCol x y a b
      else if (1 : Fin 128).val = 2 then tileLog x a b else wZero) = tileSqCol x y a b
    rw [if_neg (by decide), if_pos (by decide)]
  have h2 : ∀ a b : Fin 4, partials x y (ix4 a b 0 2) = tileLog x a b := fun a b => by
    show (if (2 : Fin 128).val = 0 then tileSq x y a b else if (2 : Fin 128).val = 1 then tileSqCol x y a b
      else if (2 : Fin 128).val = 2 then tileLog x a b else wZero) = tileLog x a b
    rw [if_neg (by decide), if_neg (by decide), if_pos (by decide)]
  have e0 : (∑ p : (⟨2, ![4, 4]⟩ : Shape).Idx, partials x y (ix4 (p 0) (p 1) 0 0)) = sumSq x y :=
    (ValueIdx.sum_idx2 _).trans ((Finset.sum_congr rfl fun a _ => Finset.sum_congr rfl fun b _ => h0 _ _).trans
      (sum_tileSq x y))
  have e1 : (∑ p : (⟨2, ![4, 4]⟩ : Shape).Idx, partials x y (ix4 (p 0) (p 1) 0 1)) = sumSqCol x y :=
    (ValueIdx.sum_idx2 _).trans ((Finset.sum_congr rfl fun a _ => Finset.sum_congr rfl fun b _ => h1 _ _).trans
      (sum_tileSqCol x y))
  have e2 : (∑ p : (⟨2, ![4, 4]⟩ : Shape).Idx, partials x y (ix4 (p 0) (p 1) 0 2)) = sumLog x :=
    (ValueIdx.sum_idx2 _).trans ((Finset.sum_congr rfl fun a _ => Finset.sum_congr rfl fun b _ => h2 _ _).trans
      (sum_tileLog x))
  have hz : wZero = 0 := Ideal.ofBits_zero_f32
  unfold lossOfPartials lossK
  rw [e0, e1, e2, hz, zero_add, zero_add, zero_add]

end Cert.LineLoss

end
-- ==== Proof.KRun.lean ====
/-
  The kernel program's run, read: after every weakly fair execution the scalar result holds the loss computed from the
  array of partial sums (the host operations after the region applied to it), the cost result holds the cost array,
  and the two arguments are unchanged.
-/
import proofs.«115154_j66133906424051_2_alg».proof.Proof.KernelIdealFrame
import proofs.«115154_j66133906424051_2_alg».proof.Proof.KCost
import proofs.«115154_j66133906424051_2_alg».proof.Proof.KPartials
import proofs.«115154_j66133906424051_2_alg».proof.Proof.KTail
import proofs.«115154_j66133906424051_2_alg».proof.Proof.TileSums

noncomputable section

namespace Cert.LineLoss.Run

open Cert.KernelIdeal Cert.KernelIdeal.Gen Cert.KernelIdeal.GenP Idealize.ShloMosaic Idealize.ShloMosaic.TcCoe
open Idealize.SL.Sem Idealize.ShloMosaic.ValueIdx Cert.LineLoss Cert.LineLoss.Blocks
open Idealize.ShloMosaic.Pipeline (Dat)

variable (m : (ℓ : Loc nD τ sig) → Buf (Elt Ideal) ℓ) (ρ : Dev nD → PrngReg)

/-- The scalar result is no window's array and is not scoped: the frame run's post reads it after the host tail. -/
theorem v21_rest : main_v21 ∈ Pipeline.restRefs sig (cfgs 0).spec :=
  Pipeline.mem_restRefs_of main_v21 rfl (by decide)

/-- The kernel program's run with both results named. -/
theorem run : θ_run defs (onTc (τ := τ) (main (F := Ideal))) ⟨m, fun _ => 0, ρ⟩ fun r => ∀ c : Dev nD,
      r.2.mem ((c : Thread nD τ).loc main_v21) = (fun _ => lossK (X m c) (Y m c))
      ∧ r.2.mem ((c : Thread nD τ).loc main_v6_0) = Cost.costArr (X m c) (Y m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨
      ((h c).2 main_v21 v21_rest).trans ((Tail.tail_loss m c).trans (by
        rw [Partials.final6 m c, lossOfPartials_partials])),
      ((h c).1 5).trans (Cost.final5 m c),
      ((h c).1 2).trans (((dats m 0 c).arrAt_in 2 rfl _).trans ((A_eq m c 2).trans (V_main_arg0 m c))),
      ((h c).1 3).trans (((dats m 0 c).arrAt_in 3 rfl _).trans ((A_eq m c 3).trans (V_main_arg1 m c)))⟩)
    (run_main m ρ)

end Cert.LineLoss.Run

end
-- ==== Proof.lean ====
/-
  The pairwise line loss: a tiled kernel against its direct computation, on the extended reals.

  Both programs take two 4096 × 4096 matrices x, y and return a scalar loss and a 4096 × 4096 cost array.
    cost(n, m) = mean over the two coordinates k of (x[n,k] − y[m,k])².  The kernel forms it tile by tile as the sum of
  the two squared differences times one half; the direct program divides the two-term sum by two. Division by the
  real two is the product with one half on every extended real, so the two arrays agree entry by entry.
    loss = Σ_{n,m} (α·mse − log x[n,4]) + mean((x[m,3] − y[n,m])²), mse the mean of (x − y)². The direct program sums the
  4096² summands X·(α·mse − log c_n) − (1 − X)·log(1 − c_n) with the all-ones weight X: the second product is zero
  times an extended real, which is zero. The kernel sums (x − y)², (y − x[·,3])² and log x[·,4] per 1024 × 1024 tile
  into a 4 × 4 × 1 × 128 array of partial sums (the logarithms counted in the first column block only, the logarithm
  of one summed elsewhere), the host sums each lane over the sixteen tiles and finishes with
  2²⁴α · mse − 4096 · Σ log c + mean(…), the factor 2²⁴α being exactly 2²⁴ times the float nearest 0.01.
  Regrouping finite sums is free in the commutative monoid of the extended reals. The one step that needs the
  precondition is Σ_{n,m} (A − L_n) = 2²⁴·A − 4096·Σ_n L_n: with finite inputs A = α·mse is a real and each
  L_n = log c_n is a real or −∞ (never +∞); if every L_n is real this is arithmetic in the reals, and if some L_n is −∞
  both sides are +∞. The squared differences (a − b)² and (b − a)² agree on reals.

  The three frames: the kernel's two are the generated frame certificates (in the copies that bind the grid coordinate the partial-sums row reads), the direct
  program's is its generated run with the results dropped. The idealization rewrote nothing, so `preserves` is trivial.
-/
import proofs.«115154_j66133906424051_2_alg».proof.Defs
import proofs.«115154_j66133906424051_2_alg».proof.Proof.Gen.Kernel
import proofs.«115154_j66133906424051_2_alg».proof.Proof.Gen.Kernel.Skeleton
import proofs.«115154_j66133906424051_2_alg».proof.Proof.Gen.Kernel.Launch
import proofs.«115154_j66133906424051_2_alg».proof.Proof.Gen.Kernel.Points
import proofs.«115154_j66133906424051_2_alg».proof.Proof.KernelFrame
import proofs.«115154_j66133906424051_2_alg».proof.Proof.Gen.KernelIdeal
import proofs.«115154_j66133906424051_2_alg».proof.Proof.Gen.KernelIdeal.Skeleton
import proofs.«115154_j66133906424051_2_alg».proof.Proof.Gen.KernelIdeal.Launch
import proofs.«115154_j66133906424051_2_alg».proof.Proof.Gen.KernelIdeal.Points
import proofs.«115154_j66133906424051_2_alg».proof.Proof.KernelIdealFrame
import proofs.«115154_j66133906424051_2_alg».proof.Proof.Gen.ReferenceIdeal
import proofs.«115154_j66133906424051_2_alg».proof.Proof.Gen.ReferenceIdeal.Run
import proofs.«115154_j66133906424051_2_alg».proof.Proof.Gen.ReferenceIdeal.Read
import proofs.«115154_j66133906424051_2_alg».proof.Proof.Gen.Pre_finite_inputs
import proofs.«115154_j66133906424051_2_alg».proof.Proof.RefRead
import proofs.«115154_j66133906424051_2_alg».proof.Proof.LossAlgebra
import proofs.«115154_j66133906424051_2_alg».proof.Proof.Finite
import proofs.«115154_j66133906424051_2_alg».proof.Proof.KRun
import Idealize.ShloMosaic.Adequacy
import Idealize.ShloMosaic.Init

noncomputable section

namespace Cert.Proof

open Idealize.ShloMosaic Idealize.ShloMosaic.TcCoe Idealize.SL.Sem Idealize.ShloMosaic.ValueIdx Cert.LineLoss

theorem frame_k : @Cert.frame_Kernel Cert.Kernel.Gen.facts Cert.Pre_finite_inputs.Gen.facts :=
  fun m ρ _ => Cert.Kernel.GenP.frame m ρ

theorem frame_ki : @Cert.frame_KernelIdeal Cert.KernelIdeal.Gen.facts Cert.Pre_finite_inputs.Gen.facts :=
  fun m ρ _ => Cert.KernelIdeal.GenP.frame m ρ

theorem frame_ri : @Cert.frame_ReferenceIdeal Cert.ReferenceIdeal.Gen.facts Cert.Pre_finite_inputs.Gen.facts :=
  fun m ρ _ =>
    (θ_run Cert.ReferenceIdeal.defs _ _).mono (fun _ h c => (h c).2.2) (Cert.ReferenceIdeal.Value.run (F := Ideal) m ρ)

/-- The direct program's scalar result is the loss with the sums taken whole, on real-valued matrices. -/
theorem ref_loss (x y : Mat) (hx : ∀ i, ∃ r : ℝ, x i = (r : EReal)) (hy : ∀ i, ∃ r : ℝ, y i = (r : EReal)) :
    Cert.ReferenceIdeal.Read.val_main_v45 (F := Ideal) x y = fun _ => lossK x y := by
  funext i
  rw [eq_ix0 i, Ref.loss_eq, lossR_eq_lossK x y hx hy]

/-- The direct program's cost result is the cost array. -/
theorem ref_cost (x y : Mat) : Cert.ReferenceIdeal.Read.val_main_v10 (F := Ideal) x y = Cost.costArr x y := by
  funext i
  obtain ⟨n, k, rfl⟩ : ∃ (n k : Fin 4096), i = ix2 n k := ⟨i 0, i 1, eq_ix2 i⟩
  rw [Ref.cost_eq, costR_eq_costK]
  rfl

theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => fun _ => lossK (Blocks.X m c) (Blocks.Y m c), fun c => Cost.costArr (Blocks.X m c) (Blocks.Y m c),
    Run.run m ρ, ?_⟩
  refine (θ_run Cert.ReferenceIdeal.defs _ _).mono (fun _ h c => ⟨?_, ?_, (h c).2.2.1, (h c).2.2.2⟩)
    (Cert.ReferenceIdeal.Value.run (F := Ideal) m' ρ')
  · obtain ⟨hx, hy⟩ := real_of_finite_inputs _ _ (hpre c)
    refine (h c).1.trans ((Cert.ReferenceIdeal.Read.val_main_v45_eq _ _).trans ?_)
    rw [(hagree c).1, (hagree c).2]
    exact ref_loss _ _ hx hy
  · refine (h c).2.1.trans ((Cert.ReferenceIdeal.Read.val_main_v10_eq _ _).trans ?_)
    rw [(hagree c).1, (hagree c).2]
    exact ref_cost _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
